-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S512 .f32) (main_arg7 : FVec F S512 .f32) (main_arg8 : FVec F S512x256 .f32) (main_arg9 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg8
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x512 .f32) (main_arg5 : FVec F S512 .f32) (main_arg6 : FVec F S512 .f32) (main_arg7 : FVec F S512 .f32) (main_arg8 : FVec F S512x256 .f32) (main_arg9 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x512 .f32 := Host.absf main_arg4
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S1x512 : Shape := ⟨2, ![1, 512]⟩
abbrev S1x256 : Shape := ⟨2, ![1, 256]⟩
abbrev S2x2x512 : Shape := ⟨3, ![2, 2, 512]⟩
abbrev S5000x128 : Shape := ⟨2, ![5000, 128]⟩
abbrev S1x2x512 : Shape := ⟨3, ![1, 2, 512]⟩
abbrev S5000x512 : Shape := ⟨2, ![5000, 512]⟩
abbrev S2x512 : Shape := ⟨2, ![2, 512]⟩
abbrev S100000x256 : Shape := ⟨2, ![100000, 256]⟩
abbrev S2000x128 : Shape := ⟨2, ![2000, 128]⟩
abbrev S2000x256 : Shape := ⟨2, ![2000, 256]⟩
abbrev S2000x512 : Shape := ⟨2, ![2000, 512]⟩

abbrev nBuf : Space → Nat
  | .hbm => 57
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x512, .f32⟩
  | .hbm, ⟨27, _⟩ => ⟨S1x256, .f32⟩
  | .hbm, ⟨28, _⟩ => ⟨S2x2x512, .f32⟩
  | .hbm, ⟨29, _⟩ => ⟨S_, .f32⟩
  | .hbm, ⟨30, _⟩ => ⟨S2x512, .f32⟩
  | .hbm, ⟨31, _⟩ => ⟨S1x512, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S1x512, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S1x512, .f32⟩
  | .hbm, ⟨56, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x512, .f32⟩
  | .local _ .vmem, ⟨5, _⟩ => ⟨S1x512, .f32⟩
  | .local _ .vmem, ⟨6, _⟩ => ⟨S1x2x512, .f32⟩
  | .local _ .vmem, ⟨7, _⟩ => ⟨S1x2x512, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S512_S1x512 : S512.ShapeCasts S1x512
  shapeCasts_S256_S1x256 : S256.ShapeCasts S1x256
  inb_S1x2x512_S1x2x512_0_0_0 : ∀ a, (![0, 0, 0] : Fin 3 → Nat) a + S1x2x512.size a ≤ S1x2x512.size a
  h_S1x2x512 : 0 < S1x2x512.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  reduces_S5000x512_S512 : S5000x512.Reduces [0] S512
  concatenates_S1x512_S1x512_S2x512_d0 : Shape.Concatenates [S1x512, S1x512] S2x512 0
  shapeCasts_S2x512_S1x2x512 : S2x512.ShapeCasts S1x2x512
  shapeCasts_S1x2x512_S1x2x512 : S1x2x512.ShapeCasts S1x2x512
  reducesTo_S2x2x512_S2x512_d0 : S2x2x512.ReducesTo [0] S2x512
  h_S_ : 0 < S_.numel
  slices_S2x512_S1x512_0_0 : S2x512.Slices ![0, 0] S1x512
  shapeCasts_S1x512_S512 : S1x512.ShapeCasts S512
  bcast_S_S512 : S_.BroadcastsInDim S512 (![] : Fin 0 → Fin S512.rank)
  slices_S2x512_S1x512_1_0 : S2x512.Slices ![1, 0] S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x512_S5000x512_1_0_0_1_n_n_wf : DotDims.WF S5000x128 S128x512 S5000x512 [1] [0] [0] [1] [] []
  dot_S2000x128_S128x512_S2000x512_1_0_0_1_n_n_wf : DotDims.WF S2000x128 S128x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x512.size a ≤ S2x2x512.size a
  hwx0_4 : ∀ i : grid0.Coords, EltTy.bits .f32 = 32 ∨ (Rect.block (s := S2x2x512) S1x2x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S512x256.size a
  hwx1_6 : ∀ i : grid1.Coords, EltTy.bits .f32 = 32 ∨ (Rect.block (s := S512x256) S512x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S100000x256.size a
  hwx1_8 : ∀ i : grid1.Coords, EltTy.bits .f32 = 32 ∨ (Rect.block (s := S100000x256) S2000x256.size (cc1_transform_8 i) (hinb1_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x2x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S512x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S100000x512 : Shape := ⟨2, ![100000, 512]⟩
abbrev S1x512 : Shape := ⟨2, ![1, 512]⟩
abbrev S100000x256 : Shape := ⟨2, ![100000, 256]⟩
abbrev S1x256 : Shape := ⟨2, ![1, 256]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x512, .f32⟩
  | .hbm, ⟨31, _⟩ => ⟨S1x512, .f32⟩
  | .hbm, ⟨32, _⟩ => ⟨S100000x512, .f32⟩
  | .hbm, ⟨33, _⟩ => ⟨S100000x512, .f32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S_, .i32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S_, .f32⟩
  | .hbm, ⟨44, _⟩ => ⟨S1x512, .f32⟩
  | .hbm, ⟨45, _⟩ => ⟨S1x512, .f32⟩
  | .hbm, ⟨46, _⟩ => ⟨S100000x512, .f32⟩
  | .hbm, ⟨47, _⟩ => ⟨S100000x512, .f32⟩
  | .hbm, ⟨48, _⟩ => ⟨S100000x512, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S1x512, .f32⟩
  | .hbm, ⟨63, _⟩ => ⟨S100000x512, .f32⟩
  | .hbm, ⟨64, _⟩ => ⟨S100000x512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512, .f32⟩
  | .hbm, ⟨69, _⟩ => ⟨S1x512, .f32⟩
  | .hbm, ⟨70, _⟩ => ⟨S100000x512, .f32⟩
  | .hbm, ⟨71, _⟩ => ⟨S100000x512, .f32⟩
  | .hbm, ⟨72, _⟩ => ⟨S1x512, .f32⟩
  | .hbm, ⟨73, _⟩ => ⟨S100000x512, .f32⟩
  | .hbm, ⟨74, _⟩ => ⟨S100000x512, .f32⟩
  | .hbm, ⟨75, _⟩ => ⟨S1x512, .f32⟩
  | .hbm, ⟨76, _⟩ => ⟨S100000x512, .f32⟩
  | .hbm, ⟨77, _⟩ => ⟨S100000x512, .f32⟩
  | .hbm, ⟨78, _⟩ => ⟨S_, .f32⟩
  | .hbm, ⟨79, _⟩ => ⟨S100000x512, .f32⟩
  | .hbm, ⟨80, _⟩ => ⟨S100000x512, .f32⟩
  | .hbm, ⟨81, _⟩ => ⟨S100000x256, .f32⟩
  | .hbm, ⟨82, _⟩ => ⟨S1x256, .f32⟩
  | .hbm, ⟨83, _⟩ => ⟨S100000x256, .f32⟩
  | .hbm, ⟨84, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_5 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call1_cst : Ref sig .tc := ⟨.hbm, 78, rfl⟩
abbrev main_call1_v0 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S512_d0 : S100000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S100000x512 : S_.BroadcastsInDim S100000x512 (![] : Fin 0 → Fin S100000x512.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x512_S100000x512_1_0_0_1_n_n_wf : DotDims.WF S100000x128 S128x512 S100000x512 [1] [0] [0] [1] [] []
  dot_S100000x512_S512x256_S100000x256_1_0_0_1_n_n_wf : DotDims.WF S100000x512 S512x256 S100000x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf

class Facts : Prop extends Facts₀ where

variable [Facts]
-- ==== Proof.KRun.lean ====
/-
  The idealised kernel program's run with its result named. Every weakly fair execution of the program terminates
  without a fault; the ten argument arrays end as launched, and the result array ends at what the last region's
  write-backs leave: the contents after the first stretch of host operations, the first region's write-backs, the
  second stretch, and the second region's write-backs, folded from the launch memory.
-/
import proofs.«107100_j65283502899905_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, the last thread state read against the final state: every unscoped buffer, the result
    among them, ends at the last boundary's contents. -/
theorem run_named : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.Spec.lean ====
/-
  One message-passing layer, as a function of its inputs, entry by entry, on the extended reals.

  N = 100000 nodes carry rows of 128 features; the aggregated neighbour messages A have the same shape. A node's
  hidden row is 1·x + A. The first linear layer maps it to 512 columns, u = (1·x + A)·w1 + b1. Each column of u is
  normalised over the 100000 rows, scaled by γ, shifted by β and rectified, and a second linear layer maps the 512
  columns to 256.

  The normalisation is written in the two ways the two programs compute it. One takes the mean μ = (0 + Σ u)/N, the
  variance (0 + Σ (u − μ)²)/N and returns (u − μ)·ρ·γ + β with ρ = 1/√(variance + ε). The other accumulates Σ u and
  Σ u² over twenty tiles of 5000 rows, ten on each of two cores, adds the two cores' totals to a zero, takes
  max(Σu²/N − μ², 0) for the variance and returns u·(γ·ρ) + (β − (μ·γ)·ρ).
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx
open scoped BigOperators

/-- The single-precision patterns the two programs spell: 1, 0, the row count 100000 and ε ≈ 1e-5. -/
abbrev one32 : EReal := Ideal.ofBits .f32 0x3F800000#32
abbrev zero32 : EReal := Ideal.ofBits .f32 0x00000000#32
abbrev cnt32 : EReal := Ideal.ofBits .f32 0x47C35000#32
abbrev eps32 : EReal := Ideal.ofBits .f32 0x3727C5AC#32

theorem one32_eq : one32 = 1 := by
  simp [Ideal.ofBits, Ideal.ieee, -EReal.coe_mul]; norm_num

theorem zero32_eq : zero32 = 0 := by
  simp [Ideal.ofBits, Ideal.ieee]

theorem cnt32_eq : cnt32 = ((100000 : ℝ) : EReal) := by
  simp [Ideal.ofBits, Ideal.ieee, -EReal.coe_mul]; norm_num

theorem eps32_eq : eps32 = (((10995116 : ℝ) * (2 : ℝ) ^ (-40 : ℤ) : ℝ) : EReal) := by
  simp [Ideal.ofBits, Ideal.ieee, -EReal.coe_mul]

theorem eps32_pos : ∃ e : ℝ, 0 < e ∧ eps32 = (e : EReal) :=
  ⟨_, by positivity, eps32_eq⟩

/-- A node's hidden entry: its own feature, times one, plus the aggregated messages. -/
def hid (x A : (⟨2, ![100000, 128]⟩ : Shape).Idx → EReal) (r : Fin 100000) (k : Fin 128) : EReal :=
  one32 * x (ix2 r k) + A (ix2 r k)

/-- The first linear layer at row r, column j. -/
def lin1 (x A : (⟨2, ![100000, 128]⟩ : Shape).Idx → EReal) (w1 : (⟨2, ![128, 512]⟩ : Shape).Idx → EReal)
    (b1 : (⟨1, ![512]⟩ : Shape).Idx → EReal) (r : Fin 100000) (j : Fin 512) : EReal :=
  (∑ k : Fin 128, hid x A r k * w1 (ix2 k j)) + b1 (ix1 j)

/-- The rectifier. -/
def relu (y : EReal) : EReal := max y zero32

/-- The second linear layer applied to the rectified rows, at row r, column o. -/
def lin2 (Y : Fin 100000 → Fin 512 → EReal) (w2 : (⟨2, ![512, 256]⟩ : Shape).Idx → EReal)
    (b2 : (⟨1, ![256]⟩ : Shape).Idx → EReal) (r : Fin 100000) (o : Fin 256) : EReal :=
  (∑ j : Fin 512, relu (Y r j) * w2 (ix2 j o)) + b2 (ix1 o)

/-! ### The normalisation with the variance as the mean of the squared deviations -/

def meanDev (U : Fin 100000 → Fin 512 → EReal) (j : Fin 512) : EReal :=
  Ideal.div (zero32 + ∑ r : Fin 100000, U r j) cnt32

def varDev (U : Fin 100000 → Fin 512 → EReal) (j : Fin 512) : EReal :=
  Ideal.div (zero32 + ∑ r : Fin 100000, (U r j - meanDev U j) * (U r j - meanDev U j)) cnt32

def bnDev (U : Fin 100000 → Fin 512 → EReal) (γ β : (⟨1, ![512]⟩ : Shape).Idx → EReal) (r : Fin 100000) (j : Fin 512) :
    EReal :=
  ((U r j - meanDev U j) * Ideal.rsqrt (varDev U j + eps32)) * γ (ix1 j) + β (ix1 j)

/-! ### The normalisation from sums accumulated tile by tile on two cores -/

/-- Row p of tile i of core c. -/
def row (c : Fin 2) (i : Fin 10) (p : Fin 5000) : Fin 100000 :=
  ⟨(c.val * 10 + i.val) * 5000 + p.val, by have := c.isLt; have := i.isLt; have := p.isLt; omega⟩

/-- One core's total of a column, and of its squares. -/
def part1 (U : Fin 100000 → Fin 512 → EReal) (c : Fin 2) (j : Fin 512) : EReal :=
  ∑ i : Fin 10, ∑ p : Fin 5000, U (row c i p) j

def part2 (U : Fin 100000 → Fin 512 → EReal) (c : Fin 2) (j : Fin 512) : EReal :=
  ∑ i : Fin 10, ∑ p : Fin 5000, U (row c i p) j * U (row c i p) j

def meanAcc (U : Fin 100000 → Fin 512 → EReal) (j : Fin 512) : EReal :=
  Ideal.div (zero32 + ∑ c : Fin 2, part1 U c j) cnt32

def msqAcc (U : Fin 100000 → Fin 512 → EReal) (j : Fin 512) : EReal :=
  Ideal.div (zero32 + ∑ c : Fin 2, part2 U c j) cnt32

def rstdAcc (U : Fin 100000 → Fin 512 → EReal) (j : Fin 512) : EReal :=
  Ideal.rsqrt (max (msqAcc U j - meanAcc U j * meanAcc U j) zero32 + eps32)

def scaleAcc (U : Fin 100000 → Fin 512 → EReal) (γ : (⟨1, ![512]⟩ : Shape).Idx → EReal) (j : Fin 512) : EReal :=
  γ (ix1 j) * rstdAcc U j

def shiftAcc (U : Fin 100000 → Fin 512 → EReal) (γ β : (⟨1, ![512]⟩ : Shape).Idx → EReal) (j : Fin 512) : EReal :=
  β (ix1 j) - (meanAcc U j * γ (ix1 j)) * rstdAcc U j

def bnAcc (U : Fin 100000 → Fin 512 → EReal) (γ β : (⟨1, ![512]⟩ : Shape).Idx → EReal) (r : Fin 100000) (j : Fin 512) :
    EReal :=
  U r j * scaleAcc U γ j + shiftAcc U γ β j

end Cert.Gin

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«107100_j65283502899905_2_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.KAgg.lean ====
/-
  The aggregated neighbour messages, as the program's host operations compute them.

  For every edge e the source index src e (a negative index counted from the end of the node list: 100000 is added to it)
  selects a row of the feature matrix x; the row is scaled by the edge's weight ew e; the scaled rows are
  added into a zero matrix at the row the destination index dst e names. The term below is that composition,
  operation by operation, in the order and with the dimension records of the program's text.
-/
import proofs.«107100_j65283502899905_2_alg».proof.Proof.Gen.KernelIdeal
import Idealize.ShloMosaic.PureOps.Ideal

noncomputable section

namespace Cert.Gin.KSide

open Idealize.ShloMosaic Cert.KernelIdeal Cert.KernelIdeal.Facts₀

/-- The aggregated messages: gather the source rows of x, scale each by its edge weight, scatter-add them into a
    zero matrix at the destination rows. -/
def kerAgg (x : S100000x128.Idx → EReal) (src dst : (⟨S1600000, .i32⟩ : BufTy).Contents (Elt Ideal))
    (ew : S1600000.Idx → EReal) : S100000x128.Idx → EReal :=
  ((fun x i u => Host.scatterAdd (F := Ideal) (φ := .f32) scatter_S100000x128_S1600000x1_S1600000x128_1_0_0_1 x i u) :
      (⟨S100000x128, .f32⟩ : BufTy).Contents (Elt Ideal) → (⟨S1600000x1, .i32⟩ : BufTy).Contents (Elt Ideal) →
        (⟨S1600000x128, .f32⟩ : BufTy).Contents (Elt Ideal) → (⟨S100000x128, .f32⟩ : BufTy).Contents (Elt Ideal))
    ((broadcastInDim S100000x128 ![] bcast_S_S100000x128 :
        (⟨S_, .f32⟩ : BufTy).Contents (Elt Ideal) → (⟨S100000x128, .f32⟩ : BufTy).Contents (Elt Ideal))
      (constant (F := Ideal) S_ .f32 0x00000000#32))
    ((broadcastInDim S1600000x1 ![0] bcast_S1600000_S1600000x1_0 :
        (⟨S1600000, .i32⟩ : BufTy).Contents (Elt Ideal) → (⟨S1600000x1, .i32⟩ : BufTy).Contents (Elt Ideal)) dst)
    ((mulf (F := Ideal) (φ := .f32) : (⟨S1600000x128, .f32⟩ : BufTy).Contents (Elt Ideal) → (⟨S1600000x128, .f32⟩ : BufTy).Contents (Elt Ideal) →
        (⟨S1600000x128, .f32⟩ : BufTy).Contents (Elt Ideal))
      (((fun x i => Host.gather gather_S100000x128_S1600000x1_S1600000x128_1_0_n_n_0_1_1128 x i) :
          (⟨S100000x128, .f32⟩ : BufTy).Contents (Elt Ideal) → (⟨S1600000x1, .i32⟩ : BufTy).Contents (Elt Ideal) →
            (⟨S1600000x128, .f32⟩ : BufTy).Contents (Elt Ideal))
        x
        ((broadcastInDim S1600000x1 ![0] bcast_S1600000_S1600000x1_0 :
            (⟨S1600000, .i32⟩ : BufTy).Contents (Elt Ideal) → (⟨S1600000x1, .i32⟩ : BufTy).Contents (Elt Ideal))
          ((select : (⟨S1600000, .i1⟩ : BufTy).Contents (Elt Ideal) → (⟨S1600000, .i32⟩ : BufTy).Contents (Elt Ideal) →
              (⟨S1600000, .i32⟩ : BufTy).Contents (Elt Ideal) → (⟨S1600000, .i32⟩ : BufTy).Contents (Elt Ideal))
            ((cmpi .slt : (⟨S1600000, .i32⟩ : BufTy).Contents (Elt Ideal) → (⟨S1600000, .i32⟩ : BufTy).Contents (Elt Ideal) →
                (⟨S1600000, .i1⟩ : BufTy).Contents (Elt Ideal))
              src
              ((broadcastInDim S1600000 ![] bcast_S_S1600000 :
                  (⟨S_, .i32⟩ : BufTy).Contents (Elt Ideal) → (⟨S1600000, .i32⟩ : BufTy).Contents (Elt Ideal))
                (constantI S_ 32 0#32)))
            ((addi : (⟨S1600000, .i32⟩ : BufTy).Contents (Elt Ideal) → (⟨S1600000, .i32⟩ : BufTy).Contents (Elt Ideal) →
                (⟨S1600000, .i32⟩ : BufTy).Contents (Elt Ideal))
              src
              ((broadcastInDim S1600000 ![] bcast_S_S1600000 :
                  (⟨S_, .i32⟩ : BufTy).Contents (Elt Ideal) → (⟨S1600000, .i32⟩ : BufTy).Contents (Elt Ideal))
                (constantI S_ 32 100000#32)))
            src)))
      ((broadcastInDim S1600000x128 ![0, 1] bcast_S1600000x1_S1600000x128_0_1 :
          (⟨S1600000x1, .f32⟩ : BufTy).Contents (Elt Ideal) → (⟨S1600000x128, .f32⟩ : BufTy).Contents (Elt Ideal))
        ((broadcastInDim S1600000x1 ![0] bcast_S1600000_S1600000x1_0 :
            (⟨S1600000, .f32⟩ : BufTy).Contents (Elt Ideal) → (⟨S1600000x1, .f32⟩ : BufTy).Contents (Elt Ideal)) ew)))

end Cert.Gin.KSide

end
-- ==== Proof.KHost.lean ====
/-
  The program's host operations between its two regions, read entry by entry.

  Before the first region the host computes the aggregated neighbour messages (gather the source rows, scale them
  by the edge weights, scatter-add them at the destination rows) and lays the two bias vectors out as rows. Between
  the regions it turns the first region's per-core column totals S (for each of two cores, the total of each column
  and of its squares) into the normalisation's scale and shift rows: the mean (0 + Σ over the cores of the totals)/N,
  the mean square likewise, the variance max(mean square − mean², 0), ρ = 1/√(variance + ε), the scale γ·ρ and the
  shift β − (mean·γ)·ρ. Arrays no operation of a stretch writes keep their contents.
-/
import proofs.«107100_j65283502899905_2_alg».proof.Proof.Gen.KernelIdeal.Launch
import proofs.«107100_j65283502899905_2_alg».proof.Proof.Spec
import proofs.«107100_j65283502899905_2_alg».proof.Proof.LibRows
import proofs.«107100_j65283502899905_2_alg».proof.Proof.KAgg
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.Gin.KSide

open Idealize.ShloMosaic Idealize.ShloMosaic.ValueIdx Idealize.ShloMosaic.StableHlo Idealize.SL.Sem
open Cert.KernelIdeal Cert.KernelIdeal.Gen
open scoped BigOperators

variable (W : Valuation τ sig (Elt Ideal))

/-! ## The first stretch -/

/-- After the first stretch the scatter's result holds the aggregated messages of the four arrays it reads. -/
theorem host0_agg :
    StableHlo.after (hostOps0 (F := Ideal)) W (Proc.devRef .tc main_v12)
      = kerAgg (W (Proc.devRef .tc main_arg0)) (W (Proc.devRef .tc main_arg1)) (W (Proc.devRef .tc main_arg2))
          (W (Proc.devRef .tc main_arg3)) := by
  after_results
  rfl

/-- The first bias laid out as a row reads the bias. -/
theorem host0_b1 (j : Fin 512) :
    StableHlo.after (hostOps0 (F := Ideal)) W (Proc.devRef .tc main_v13) (ix2 (0 : Fin 1) j)
      = W (Proc.devRef .tc main_arg5) (ix1 j) := by
  after_results
  exact shapeCast_a_1a_apply (a := 512) (W (Proc.devRef .tc main_arg5)) _ (0 : Fin 1) j

/-- The second bias laid out as a row reads the bias. -/
theorem host0_b2 (j : Fin 256) :
    StableHlo.after (hostOps0 (F := Ideal)) W (Proc.devRef .tc main_v14) (ix2 (0 : Fin 1) j)
      = W (Proc.devRef .tc main_arg9) (ix1 j) := by
  after_results
  exact shapeCast_a_1a_apply (a := 256) (W (Proc.devRef .tc main_arg9)) _ (0 : Fin 1) j

/-- The first stretch writes none of the argument arrays the regions read. -/
theorem host0_keep_arg0 :
    StableHlo.after (hostOps0 (F := Ideal)) W (Proc.devRef .tc main_arg0) = W (Proc.devRef .tc main_arg0) := by
  after_results
theorem host0_keep_arg4 :
    StableHlo.after (hostOps0 (F := Ideal)) W (Proc.devRef .tc main_arg4) = W (Proc.devRef .tc main_arg4) := by
  after_results
theorem host0_keep_arg6 :
    StableHlo.after (hostOps0 (F := Ideal)) W (Proc.devRef .tc main_arg6) = W (Proc.devRef .tc main_arg6) := by
  after_results
theorem host0_keep_arg7 :
    StableHlo.after (hostOps0 (F := Ideal)) W (Proc.devRef .tc main_arg7) = W (Proc.devRef .tc main_arg7) := by
  after_results
theorem host0_keep_arg8 :
    StableHlo.after (hostOps0 (F := Ideal)) W (Proc.devRef .tc main_arg8) = W (Proc.devRef .tc main_arg8) := by
  after_results

end Cert.Gin.KSide

end
-- ==== Proof.KKeep.lean ====
/-
  What each array holds when a region is entered, traced back through the program. The program runs a first stretch
  of host operations, the statistics region, a second stretch of host operations and the perceptron region. A region
  leaves the arrays of its input windows as it found them and touches no array outside its windows; a stretch of host
  operations changes only the arrays its operations write. So the node features and the two weight matrices reach
  both regions as launched, the aggregated messages and the two bias rows reach the second region as the first
  stretch left them, the scale and shift vectors reach the second stretch as launched, and the second stretch reads
  the statistics where the first region's write-backs left them.
-/
import proofs.«107100_j65283502899905_2_alg».proof.Proof.Gen.KernelIdeal.Frame
import proofs.«107100_j65283502899905_2_alg».proof.Proof.KHost
import Idealize.ShloMosaic.Lib.StableHlo.Run

noncomputable section

namespace Cert.Gin.KSide

open Idealize.ShloMosaic Idealize.ShloMosaic.TcCoe Idealize.SL.Sem Idealize.ShloMosaic.StableHlo
open Cert.KernelIdeal Cert.KernelIdeal.Gen
open Idealize.ShloMosaic.Pipeline (Dat)

/-! ## The second stretch writes none of the arrays the perceptron region reads unchanged -/

section Stretch

variable (W : Valuation τ sig (Elt Ideal))

theorem stretch1_keep_arg0 :
    StableHlo.after (hostOps1 (F := Ideal)) W (Proc.devRef .tc main_arg0) = W (Proc.devRef .tc main_arg0) := by
  after_results
theorem stretch1_keep_arg4 :
    StableHlo.after (hostOps1 (F := Ideal)) W (Proc.devRef .tc main_arg4) = W (Proc.devRef .tc main_arg4) := by
  after_results
theorem stretch1_keep_arg8 :
    StableHlo.after (hostOps1 (F := Ideal)) W (Proc.devRef .tc main_arg8) = W (Proc.devRef .tc main_arg8) := by
  after_results
theorem stretch1_keep_v12 :
    StableHlo.after (hostOps1 (F := Ideal)) W (Proc.devRef .tc main_v12) = W (Proc.devRef .tc main_v12) := by
  after_results
theorem stretch1_keep_v13 :
    StableHlo.after (hostOps1 (F := Ideal)) W (Proc.devRef .tc main_v13) = W (Proc.devRef .tc main_v13) := by
  after_results
theorem stretch1_keep_v14 :
    StableHlo.after (hostOps1 (F := Ideal)) W (Proc.devRef .tc main_v14) = W (Proc.devRef .tc main_v14) := by
  after_results

end Stretch

section Fold

variable (m : (ℓ : Loc nD τ sig) → Buf (Elt Ideal) ℓ) (ρ : Dev nD → PrngReg)

/-! ## The statistics region's entry -/

/-- The node features reach the first region as launched. -/
theorem V1_x (c : Dev nD) : V1 m ρ c (Pipeline.arrRef spec0 0) = m ((c : Thread nD τ).loc main_arg0) :=
  host0_keep_arg0 (W0 m ρ c)

/-- The first weight matrix reaches the first region as launched. -/
theorem V1_w1 (c : Dev nD) : V1 m ρ c (Pipeline.arrRef spec0 2) = m ((c : Thread nD τ).loc main_arg4) :=
  host0_keep_arg4 (W0 m ρ c)

/-- The first region's second and fourth windows are the first stretch's aggregated messages and first bias row. -/
theorem V1_agg (c : Dev nD) : V1 m ρ c (Pipeline.arrRef spec0 1) = W1 m ρ c (Proc.devRef .tc main_v12) := rfl
theorem V1_b1 (c : Dev nD) : V1 m ρ c (Pipeline.arrRef spec0 3) = W1 m ρ c (Proc.devRef .tc main_v13) := rfl

/-! ## The first region's exit -/

/-- The scale vector is as launched when the second stretch reads it. -/
theorem W2_gamma (c : Dev nD) : W2 m ρ c (Proc.devRef .tc main_arg6) = m ((c : Thread nD τ).loc main_arg6) :=
  (W2_of_ne m ρ c main_arg6 (by decide)).trans (host0_keep_arg6 (W0 m ρ c))

/-- The shift vector is as launched when the second stretch reads it. -/
theorem W2_beta (c : Dev nD) : W2 m ρ c (Proc.devRef .tc main_arg7) = m ((c : Thread nD τ).loc main_arg7) :=
  (W2_of_ne m ρ c main_arg7 (by decide)).trans (host0_keep_arg7 (W0 m ρ c))

/-- The statistics array holds what the first region's write-backs leave. -/
theorem W2_stats (c : Dev nD) :
    W2 m ρ c (Proc.devRef .tc main_v15) = (dat0 (F := Ideal) (V1 m ρ) c).arrAt 4 cfg0.N :=
  W2_arr m ρ c 4

/-- An input window's array leaves the first region as it entered. -/
theorem W2_in_x (c : Dev nD) : W2 m ρ c (Proc.devRef .tc main_arg0) = W1 m ρ c (Proc.devRef .tc main_arg0) :=
  (W2_arr m ρ c 0).trans (((dat0 (F := Ideal) (V1 m ρ) c).arrAt_in 0 rfl _).trans (A_eq0 (V1 m ρ) c 0))
theorem W2_in_agg (c : Dev nD) : W2 m ρ c (Proc.devRef .tc main_v12) = W1 m ρ c (Proc.devRef .tc main_v12) :=
  (W2_arr m ρ c 1).trans (((dat0 (F := Ideal) (V1 m ρ) c).arrAt_in 1 rfl _).trans (A_eq0 (V1 m ρ) c 1))
theorem W2_in_w1 (c : Dev nD) : W2 m ρ c (Proc.devRef .tc main_arg4) = W1 m ρ c (Proc.devRef .tc main_arg4) :=
  (W2_arr m ρ c 2).trans (((dat0 (F := Ideal) (V1 m ρ) c).arrAt_in 2 rfl _).trans (A_eq0 (V1 m ρ) c 2))
theorem W2_in_b1 (c : Dev nD) : W2 m ρ c (Proc.devRef .tc main_v13) = W1 m ρ c (Proc.devRef .tc main_v13) :=
  (W2_arr m ρ c 3).trans (((dat0 (F := Ideal) (V1 m ρ) c).arrAt_in 3 rfl _).trans (A_eq0 (V1 m ρ) c 3))

/-! ## The perceptron region's entry -/

/-- The node features reach the second region as launched. -/
theorem V3_x (c : Dev nD) : V3 m ρ c (Pipeline.arrRef spec1 0) = m ((c : Thread nD τ).loc main_arg0) :=
  (stretch1_keep_arg0 (W2 m ρ c)).trans ((W2_in_x m ρ c).trans (host0_keep_arg0 (W0 m ρ c)))

/-- The first weight matrix reaches the second region as launched. -/
theorem V3_w1 (c : Dev nD) : V3 m ρ c (Pipeline.arrRef spec1 2) = m ((c : Thread nD τ).loc main_arg4) :=
  (stretch1_keep_arg4 (W2 m ρ c)).trans ((W2_in_w1 m ρ c).trans (host0_keep_arg4 (W0 m ρ c)))

/-- The second weight matrix reaches the second region as launched. -/
theorem V3_w2 (c : Dev nD) : V3 m ρ c (Pipeline.arrRef spec1 6) = m ((c : Thread nD τ).loc main_arg8) :=
  (stretch1_keep_arg8 (W2 m ρ c)).trans ((W2_of_ne m ρ c main_arg8 (by decide)).trans (host0_keep_arg8 (W0 m ρ c)))

/-- The aggregated messages reach the second region as the first stretch left them. -/
theorem V3_agg (c : Dev nD) : V3 m ρ c (Pipeline.arrRef spec1 1) = W1 m ρ c (Proc.devRef .tc main_v12) :=
  (stretch1_keep_v12 (W2 m ρ c)).trans (W2_in_agg m ρ c)

/-- The first bias row reaches the second region as the first stretch left it. -/
theorem V3_b1 (c : Dev nD) : V3 m ρ c (Pipeline.arrRef spec1 3) = W1 m ρ c (Proc.devRef .tc main_v13) :=
  (stretch1_keep_v13 (W2 m ρ c)).trans (W2_in_b1 m ρ c)

/-- The second bias row reaches the second region as the first stretch left it. -/
theorem V3_b2 (c : Dev nD) : V3 m ρ c (Pipeline.arrRef spec1 7) = W1 m ρ c (Proc.devRef .tc main_v14) :=
  (stretch1_keep_v14 (W2 m ρ c)).trans (W2_of_ne m ρ c main_v14 (by decide))

/-- The second region's fifth and sixth windows are the second stretch's scale and shift rows. -/
theorem V3_scale (c : Dev nD) : V3 m ρ c (Pipeline.arrRef spec1 4) = W3 m ρ c (Proc.devRef .tc main_v33) := rfl
theorem V3_shift (c : Dev nD) : V3 m ρ c (Pipeline.arrRef spec1 5) = W3 m ρ c (Proc.devRef .tc main_v37) := rfl

/-- The result array holds what the second region's write-backs leave. -/
theorem W4_out (c : Dev nD) :
    W4 m ρ c (Proc.devRef .tc main_v38) = (dat1 (F := Ideal) (V3 m ρ) c).arrAt 8 cfg1.N :=
  W4_arr m ρ c 8

end Fold

end Cert.Gin.KSide

end
-- ==== Proof.KMlpPay.lean ====
/-
  The second region's stored value at one entry. The body computes, on a block of 2000 rows, the hidden row
  1·x + A, its product with the 128 × 512 weights plus the bias row, that times the scale row plus the shift row,
  the rectifier, the product with the 512 × 256 weights and the second bias row. Read at row p and column o of the
  block this is the textbook formula: every pointwise operation reads its operands at the same entry, a change of
  format is the identity on the extended reals, a product into a zero accumulator is the sum over the contraction
  index, and a one-row array repeated down the rows reads its only row.
-/
import proofs.«107100_j65283502899905_2_alg».proof.Proof.Gen.KernelIdeal.Skeleton
import proofs.«107100_j65283502899905_2_alg».proof.Proof.Spec
import proofs.«107100_j65283502899905_2_alg».proof.Proof.LibRows

noncomputable section

namespace Cert.Gin.KSide

open Idealize.ShloMosaic Idealize.ShloMosaic.ValueIdx Cert.KernelIdeal Cert.KernelIdeal.Gen
open scoped BigOperators

/-- A one-row array, recast to its own shape and repeated down `a` rows, reads at `(p, c)` its row at `c`. -/
theorem rowSelf_apply {α : Type} {a b : Nat} (v : (⟨2, ![1, b]⟩ : Shape).Idx → α)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- One entry of the block the body stores, from the blocks it loads: row `p` of the two 2000 × 128 blocks, the
    weights and the four one-row arrays. -/
def mlpBlk (x A : S2000x128.Idx → EReal) (w1 : S128x512.Idx → EReal) (b1r sc sh : S1x512.Idx → EReal)
    (w2 : S512x256.Idx → EReal) (b2r : S1x256.Idx → EReal) (p : Fin 2000) (o : Fin 256) : EReal :=
  (∑ j : Fin 512, Cert.Gin.relu (((∑ k : Fin 128, (Cert.Gin.one32 * x (ix2 p k) + A (ix2 p k)) * w1 (ix2 k j))
      + b1r (ix2 (0 : Fin 1) j)) * sc (ix2 (0 : Fin 1) j) + sh (ix2 (0 : Fin 1) j)) * w2 (ix2 j o))
    + b2r (ix2 (0 : Fin 1) o)

/-- The stored value at `(p, o)` is that entry. -/
theorem pay1_apply (v0 v3 : Vec Ideal S2000x128 .f32) (v7 : Vec Ideal S128x512 .f32) (v10 v14 v18 : Vec Ideal S1x512 .f32)
    (v25 : Vec Ideal S512x256 .f32) (v28 : Vec Ideal S1x256 .f32) (p : Fin 2000) (o : Fin 256) :
    k1_pay1 (F := Ideal) v0 v3 v7 v10 v14 v18 v25 v28 (ix2 p o) = mlpBlk v0 v3 v7 v10 v14 v18 v25 v28 p o := by
  unfold k1_pay1 mlpBlk
  refine congrArg₂ (fun a b : EReal => a + b) ?_ ?_
  · refine (Cert.LibRows.matmul_plain_apply _ rfl none _ _ p o).trans ?_
    refine Finset.sum_congr rfl fun j _ => ?_
    refine congrArg₂ (fun a b : EReal => a * b) ?_ rfl
    show max _ _ = Cert.Gin.relu _
    unfold Cert.Gin.relu
    refine congrArg₂ (fun a b : EReal => max a b) ?_ rfl
    refine congrArg₂ (fun a b : EReal => a + b) ?_ (rowSelf_apply v18 _ _ p j)
    refine congrArg₂ (fun a b : EReal => a * b) ?_ (rowSelf_apply v14 _ _ p j)
    refine congrArg₂ (fun a b : EReal => a + b) ?_ (rowSelf_apply v10 _ _ p j)
    refine (Cert.LibRows.matmul_plain_apply _ rfl none _ _ p j).trans ?_
    refine Finset.sum_congr rfl fun k _ => ?_
    refine congrArg₂ (fun a b : EReal => a * b) ?_ rfl
    show _ * _ + shapeCast S2000x128 v3 _ (ix2 p k) = _
    rw [shapeCast_self]
    rfl
  · exact rowSelf_apply v28 _ _ p o

end Cert.Gin.KSide

end
-- ==== Proof.KMlp.lean ====
/-
  What the second region leaves in its output array, entry by entry. The region runs over 50 points; at point t it
  reads rows 2000·t … 2000·t + 1999 of the node features and of the aggregated messages, the whole of the two weight
  matrices and of the four one-row arrays, and writes rows 2000·t … 2000·t + 1999 of the output. What a point writes
  is the block's formula of the blocks it read; each block entry is an entry of the whole array at block index times
  block size plus the coordinate inside the block; so what point t writes is rows 2000·t … of ONE function of the whole
  arrays, the two-layer perceptron on the hidden rows 1·x + A with the scale and shift rows between the layers. Every
  row r lies in the block of point r / 2000, so the array ends holding that function everywhere.
-/
import proofs.«107100_j65283502899905_2_alg».proof.Proof.Gen.KernelIdeal.Frame
import proofs.«107100_j65283502899905_2_alg».proof.Proof.KMlpPay
import Idealize.ShloMosaic.Lib.Pipeline.Value

noncomputable section

namespace Cert.Gin.KSide

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

/-- One entry of the layer's output before the statistics are folded in: row `r`, column `o`, from the whole arrays —
    the hidden row, the first linear layer with its bias row, the scale and shift rows, the rectifier, the second
    linear layer with its bias row. -/
def mlpEntry (x A : S100000x128.Idx → EReal) (w1 : S128x512.Idx → EReal) (b1r : S1x512.Idx → EReal)
    (sc sh : S1x512.Idx → EReal) (w2 : S512x256.Idx → EReal) (b2r : S1x256.Idx → EReal)
    (r : Fin 100000) (o : Fin 256) : EReal :=
  (∑ j : Fin 512, Cert.Gin.relu (((∑ k : Fin 128, Cert.Gin.hid x A r k * w1 (ix2 k j)) + b1r (ix2 (0 : Fin 1) j))
      * sc (ix2 (0 : Fin 1) j) + sh (ix2 (0 : Fin 1) j)) * w2 (ix2 j o)) + b2r (ix2 (0 : Fin 1) o)

/-- The stored block's entry `(p, o)` is entry `(r, o)` of that function when row `p` of the two row blocks is row `r`
    of the arrays and the other blocks are their arrays. -/
theorem blk_entry (x A : S100000x128.Idx → EReal) (w1 : S128x512.Idx → EReal) (b1r sc sh : S1x512.Idx → EReal)
    (w2 : S512x256.Idx → EReal) (b2r : S1x256.Idx → EReal)
    (x0 x1 : Vec Ideal S2000x128 .f32) (x2 : Vec Ideal S128x512 .f32) (x3 x4 x5 : Vec Ideal S1x512 .f32)
    (x6 : Vec Ideal S512x256 .f32) (x7 : Vec Ideal S1x256 .f32) (r : Fin 100000) (p : Fin 2000) (o : Fin 256)
    (h0 : ∀ k : Fin 128, x0 (ix2 p k) = x (ix2 r k)) (h1 : ∀ k : Fin 128, x1 (ix2 p k) = A (ix2 r k))
    (h2 : ∀ (k : Fin 128) (j : Fin 512), x2 (ix2 k j) = w1 (ix2 k j))
    (h3 : ∀ j : Fin 512, x3 (ix2 (0 : Fin 1) j) = b1r (ix2 (0 : Fin 1) j))
    (h4 : ∀ j : Fin 512, x4 (ix2 (0 : Fin 1) j) = sc (ix2 (0 : Fin 1) j))
    (h5 : ∀ j : Fin 512, x5 (ix2 (0 : Fin 1) j) = sh (ix2 (0 : Fin 1) j))
    (h6 : ∀ (j : Fin 512) (q : Fin 256), x6 (ix2 j q) = w2 (ix2 j q))
    (h7 : ∀ q : Fin 256, x7 (ix2 (0 : Fin 1) q) = b2r (ix2 (0 : Fin 1) q)) :
    k1_pay1 (F := Ideal) x0 x1 x2 x3 x4 x5 x6 x7 (ix2 p o) = mlpEntry x A w1 b1r sc sh w2 b2r r o := by
  rw [pay1_apply]
  unfold mlpBlk mlpEntry Cert.Gin.hid
  simp only [h0, h1, h2, h3, h4, h5, h6, h7]

theorem hz : (![0, 0] : Fin 2 → Nat) = fun _ => 0 := funext fun a => by fin_cases a <;> rfl

/-- The printed index maps over the grid: the two row windows and the output move with the point on the row axis,
    every other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

section Blocks

variable (V : (c : Dev nD) → (b : Ref sig .tc) → Buf (Elt Ideal) ((c : Thread nD τ).loc b))

/-- Row `p` of the node-feature block at point `t` is row `2000·t + p` of the array. -/
theorem iblk_0 (c : Dev nD) (t : Fin cfg1.N) (p : Fin 2000) (k : Fin 128) (r : Fin 100000) (hr : r.val = t.val * 2000 + p.val) :
    (iblk1 V c 0 t : Vec Ideal S2000x128 .f32) (ix2 p k) = (V c (Pipeline.arrRef spec1 0) : S100000x128.Idx → EReal) (ix2 r k) := by
  obtain ⟨e0, e1, -⟩ := idx_facts t
  unfold iblk1
  rw [View.read_apply]
  show (V c (Pipeline.arrRef spec1 0) : S100000x128.Idx → EReal) (((cfg1.win 0).blk t).view.emb (ix2 p k)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Row `p` of the aggregated-message block at point `t` is row `2000·t + p` of the array. -/
theorem iblk_1 (c : Dev nD) (t : Fin cfg1.N) (p : Fin 2000) (k : Fin 128) (r : Fin 100000) (hr : r.val = t.val * 2000 + p.val) :
    (iblk1 V c 1 t : Vec Ideal S2000x128 .f32) (ix2 p k) = (V c (Pipeline.arrRef spec1 1) : S100000x128.Idx → EReal) (ix2 r k) := by
  obtain ⟨-, -, e0, e1, -⟩ := idx_facts t
  unfold iblk1
  rw [View.read_apply]
  show (V c (Pipeline.arrRef spec1 1) : S100000x128.Idx → EReal) (((cfg1.win 1).blk t).view.emb (ix2 p k)) = _
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- The first weight matrix's block at any point is the matrix. -/
theorem iblk_2 (c : Dev nD) (t : Fin cfg1.N) (k : Fin 128) (j : Fin 512) :
    (iblk1 V c 2 t : Vec Ideal S128x512 .f32) (ix2 k j) = (V c (Pipeline.arrRef spec1 2) : S128x512.Idx → EReal) (ix2 k j) := by
  obtain ⟨-, -, -, -, e0, e1, -⟩ := idx_facts t
  unfold iblk1
  rw [View.read_apply]
  show (V c (Pipeline.arrRef spec1 2) : S128x512.Idx → EReal) (((cfg1.win 2).blk t).view.emb (ix2 k j)) = _
  refine congrArg _ (funext fun a => Fin.ext ?_)
  match a with
  | ⟨0, _⟩ => show win1_2.index t (0 : Fin 2) * 128 + 1 * k.val = k.val; omega
  | ⟨1, _⟩ => show win1_2.index t (1 : Fin 2) * 512 + 1 * j.val = j.val; omega

/-- The first bias row's block at any point is the row. -/
theorem iblk_3 (c : Dev nD) (t : Fin cfg1.N) (j : Fin 512) :
    (iblk1 V c 3 t : Vec Ideal S1x512 .f32) (ix2 (0 : Fin 1) j) = (V c (Pipeline.arrRef spec1 3) : S1x512.Idx → EReal) (ix2 (0 : Fin 1) j) := by
  obtain ⟨-, -, -, -, -, -, e0, e1, -⟩ := idx_facts t
  unfold iblk1
  rw [View.read_apply]
  show (V c (Pipeline.arrRef spec1 3) : S1x512.Idx → EReal) (((cfg1.win 3).blk t).view.emb (ix2 (0 : Fin 1) j)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 512 + 1 * j.val = j.val; omega

/-- The scale row's block at any point is the row. -/
theorem iblk_4 (c : Dev nD) (t : Fin cfg1.N) (j : Fin 512) :
    (iblk1 V c 4 t : Vec Ideal S1x512 .f32) (ix2 (0 : Fin 1) j) = (V c (Pipeline.arrRef spec1 4) : S1x512.Idx → EReal) (ix2 (0 : Fin 1) j) := by
  obtain ⟨-, -, -, -, -, -, -, -, e0, e1, -⟩ := idx_facts t
  unfold iblk1
  rw [View.read_apply]
  show (V c (Pipeline.arrRef spec1 4) : S1x512.Idx → EReal) (((cfg1.win 4).blk t).view.emb (ix2 (0 : Fin 1) j)) = _
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 512 + 1 * j.val = j.val; omega

/-- The shift row's block at any point is the row. -/
theorem iblk_5 (c : Dev nD) (t : Fin cfg1.N) (j : Fin 512) :
    (iblk1 V c 5 t : Vec Ideal S1x512 .f32) (ix2 (0 : Fin 1) j) = (V c (Pipeline.arrRef spec1 5) : S1x512.Idx → EReal) (ix2 (0 : Fin 1) j) := by
  obtain ⟨-, -, -, -, -, -, -, -, -, -, e0, e1, -⟩ := idx_facts t
  unfold iblk1
  rw [View.read_apply]
  show (V c (Pipeline.arrRef spec1 5) : S1x512.Idx → EReal) (((cfg1.win 5).blk t).view.emb (ix2 (0 : Fin 1) j)) = _
  refine congrArg _ (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 512 + 1 * j.val = j.val; omega

/-- The second weight matrix's block at any point is the matrix. -/
theorem iblk_6 (c : Dev nD) (t : Fin cfg1.N) (j : Fin 512) (q : Fin 256) :
    (iblk1 V c 6 t : Vec Ideal S512x256 .f32) (ix2 j q) = (V c (Pipeline.arrRef spec1 6) : S512x256.Idx → EReal) (ix2 j q) := by
  obtain ⟨-, -, -, -, -, -, -, -, -, -, -, -, e0, e1, -⟩ := idx_facts t
  unfold iblk1
  rw [View.read_apply]
  show (V c (Pipeline.arrRef spec1 6) : S512x256.Idx → EReal) (((cfg1.win 6).blk t).view.emb (ix2 j q)) = _
  refine congrArg _ (funext fun a => Fin.ext ?_)
  match a with
  | ⟨0, _⟩ => show win1_6.index t (0 : Fin 2) * 512 + 1 * j.val = j.val; omega
  | ⟨1, _⟩ => show win1_6.index t (1 : Fin 2) * 256 + 1 * q.val = q.val; omega

/-- The second bias row's block at any point is the row. -/
theorem iblk_7 (c : Dev nD) (t : Fin cfg1.N) (q : Fin 256) :
    (iblk1 V c 7 t : Vec Ideal S1x256 .f32) (ix2 (0 : Fin 1) q) = (V c (Pipeline.arrRef spec1 7) : S1x256.Idx → EReal) (ix2 (0 : Fin 1) q) := by
  obtain ⟨-, -, -, -, -, -, -, -, -, -, -, -, -, -, e0, e1, -⟩ := idx_facts t
  unfold iblk1
  rw [View.read_apply]
  show (V c (Pipeline.arrRef spec1 7) : S1x256.Idx → EReal) (((cfg1.win 7).blk t).view.emb (ix2 (0 : Fin 1) q)) = _
  refine congrArg _ (funext fun a => Fin.ext ?_)
  match a with
  | ⟨0, _⟩ => show win1_7.index t (0 : Fin 2) * 1 + 1 * (0 : Fin 1).val = (0 : Fin 1).val; omega
  | ⟨1, _⟩ => show win1_7.index t (1 : Fin 2) * 256 + 1 * q.val = q.val; omega

/-- A block of 2000 output rows whose row `p` is row `2000·t + p` of a whole-array function is what the write-back
    of point `t` would read off that function. -/
theorem cut_rows (X : Vec Ideal S2000x256 .f32) (G : S100000x256.Idx → EReal) (t : Fin cfg1.N)
    (h : ∀ (p : Fin 2000) (o : Fin 256) (r : Fin 100000), r.val = t.val * 2000 + p.val → X (ix2 p o) = G (ix2 r o)) :
    (cfg1.win 8).cut (grid1.coords t) X = ((cfg1.win 8).blk t).view.read (Elt Ideal) G := by
  obtain ⟨-, -, -, -, -, -, -, -, -, -, -, -, -, -, -, -, e0, e1⟩ := idx_facts t
  have hN : cfg1.N = 50 := N_1
  have ht : t.val < 50 := by have := t.isLt; omega
  funext j
  have hj0 : (j 0).val < 2000 := (j 0).isLt
  have hj1 : (j 1).val < 256 := (j 1).isLt
  rw [View.read_apply]
  show X ((cfg1.win 8).xinj (grid1.coords t) j) = G (((cfg1.win 8).blk t).view.emb j)
  have ex : (cfg1.win 8).xinj (grid1.coords t) j = ix2 (⟨(j 0).val, hj0⟩ : Fin 2000) (⟨(j 1).val, hj1⟩ : Fin 256) :=
    funext fun a => by
      match a with
      | ⟨0, _⟩ => rfl
      | ⟨1, _⟩ => rfl
  have eg : ((cfg1.win 8).blk t).view.emb j
      = ix2 (⟨t.val * 2000 + (j 0).val, by omega⟩ : Fin 100000) (⟨(j 1).val, hj1⟩ : Fin 256) :=
    funext fun a => Fin.ext (by
      match a with
      | ⟨0, _⟩ => show win1_8.index t (0 : Fin 2) * 2000 + 1 * (j 0).val = t.val * 2000 + (j 0).val; omega
      | ⟨1, _⟩ => show win1_8.index t (1 : Fin 2) * 256 + 1 * (j 1).val = (j 1).val; omega)
  rw [ex, eg]
  exact h _ _ _ rfl

/-- The output array as one function of the arrays the region finds: the perceptron's entry at each index. -/
abbrev mlpArr (c : Dev nD) : S100000x256.Idx → EReal := fun i =>
  mlpEntry (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (i 0) (i 1)

/-- What point `t` writes back is rows `2000·t …` of that function. -/
theorem flushed_eq (c : Dev nD) (t : Fin cfg1.N) :
    (dat1 (F := Ideal) V c).flushed 8 t = ((cfg1.win 8).blk t).view.read (Elt Ideal) (mlpArr V c) := by
  show (cfg1.win 8).cut (grid1.coords t) ((dat1 (F := Ideal) V c).after 8 t) = _
  rw [after1_8]
  unfold out1_8
  rw [View.canon_unit_zero hz]
  simp only [View.ld_unit_zero (S := S2000x128) hz, View.ld_unit_zero (S := S128x512) hz,
    View.ld_unit_zero (S := S1x512) hz, View.ld_unit_zero (S := S512x256) hz, View.ld_unit_zero (S := S1x256) hz]
  refine cut_rows _ (mlpArr V c) t fun p o r hr => ?_
  exact blk_entry (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7))
    (iblk1 V c 0 t) (iblk1 V c 1 t) (iblk1 V c 2 t) (iblk1 V c 3 t) (iblk1 V c 4 t) (iblk1 V c 5 t) (iblk1 V c 6 t)
    (iblk1 V c 7 t) r p o
    (fun k => iblk_0 V c t p k r hr) (fun k => iblk_1 V c t p k r hr) (fun k j => iblk_2 V c t k j)
    (fun j => iblk_3 V c t j) (fun j => iblk_4 V c t j) (fun j => iblk_5 V c t j) (fun j q => iblk_6 V c t j q)
    (fun q => iblk_7 V c t q)

/-- An index of the output array is in point `t`'s block iff each coordinate is in the block's range on its axis. -/
theorem mem_blk (t : Fin cfg1.N) (i : S100000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v38).slice (win1_8.rect t)).set ↔ _
  rw [View.set_slice_whole, Rect.mem_set_unit]
  exact Iff.rfl

/-- Row `r` of the output lies in the block of point `r / 2000`, which writes back. -/
theorem cover (i : S100000x256.Idx) :
    ∃ t : Fin cfg1.N, (cfg1.win 8).flush t = true ∧ i ∈ ((cfg1.win 8).blk t).view.set := by
  have hi0 : (i 0).val < 100000 := (i 0).isLt
  have hi1 : (i 1).val < 256 := (i 1).isLt
  have hN : cfg1.N = 50 := N_1
  have hlt : (i 0).val / 2000 < cfg1.N := by rw [hN]; omega
  obtain ⟨-, -, -, -, -, -, -, -, -, -, -, -, -, -, -, -, e0, e1⟩ := idx_facts ⟨(i 0).val / 2000, hlt⟩
  refine ⟨⟨(i 0).val / 2000, hlt⟩, flush1_8 _, ?_⟩
  rw [mem_blk]
  intro a
  match a with
  | ⟨0, _⟩ =>
    show win1_8.index ⟨(i 0).val / 2000, hlt⟩ (0 : Fin 2) * 2000 ≤ (i 0).val
      ∧ (i 0).val < win1_8.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_8.index ⟨(i 0).val / 2000, hlt⟩ (1 : Fin 2) * 256 ≤ (i 1).val
      ∧ (i 1).val < win1_8.index ⟨(i 0).val / 2000, hlt⟩ (1 : Fin 2) * 256 + 256
    rw [e1]
    omega

/-- THE OUTPUT ARRAY after the region, at every entry: the perceptron's entry of the arrays the region finds. -/
theorem mlp_arr (c : Dev nD) (r : Fin 100000) (o : Fin 256) :
    (dat1 (F := Ideal) V c).arrAt 8 cfg1.N (ix2 r o)
      = mlpEntry (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) r o :=
  congrFun ((dat1 (F := Ideal) V c).arrAt_eq_of_cover 8 (mlpArr V c) (fun t _ => flushed_eq V c t) cover) (ix2 r o)

end Blocks

end Cert.Gin.KSide

end
-- ==== Proof.KStatsPieces.lean ====
/-
  What one grid point of the statistics kernel leaves in its output block.

  The body loads a tile of x, a tile of the aggregated messages, the first weight matrix and the bias row, and stores
  the block's previous contents plus the tile's column sums and column sums of squares. At the first tile of a core the
  block is first overwritten with zeros, so the previous contents read back as zeros.
-/
import proofs.«107100_j65283502899905_2_alg».proof.Proof.Gen.KernelIdeal.Frame
import Idealize.ShloMosaic.Lib.Pipeline.Value
import Idealize.ShloMosaic.Lib.Tactic

noncomputable section

namespace Cert.KernelIdeal.Stats

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile of a core: the block holding xo ends at the body's sum over xo. -/
theorem out_B (c : Dev nD) (i : grid0.Coords) (a2 : Memref sig .tc .vmem S5000x128 .f32) (h2 : a2.IsWhole)
    (a3 : Memref sig .tc .vmem S5000x128 .f32) (h3 : a3.IsWhole) (a4 : Memref sig .tc .vmem S128x512 .f32) (h4 : a4.IsWhole)
    (a5 : Memref sig .tc .vmem S1x512 .f32) (h5 : a5.IsWhole) (a6 : Memref sig .tc .vmem S1x2x512 .f32) (h6 : a6.IsWhole)
    (hc : ¬cond0_0 i) (x0 x1 : Vec F S5000x128 .f32) (x2 : Vec F S128x512 .f32) (x3 : Vec F S1x512 .f32)
    (xo : Vec F S1x2x512 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz3]
  simp only [View.readAt_eq_ld, h2.read_unread, h3.read_unread, h4.read_unread, h5.read_unread, h6.read_unread,
    View.ld_unit_zero (S := S5000x128) hz2, View.ld_unit_zero (S := S128x512) hz2, View.ld_unit_zero (S := S1x512) hz2,
    View.ld_unit_zero (S := S1x2x512) hz3]

/-- The first tile of a core: the block is zeroed first, so it ends at the body's sum over the zero block. -/
theorem out_A (c : Dev nD) (i : grid0.Coords) (a2 : Memref sig .tc .vmem S5000x128 .f32) (h2 : a2.IsWhole)
    (a3 : Memref sig .tc .vmem S5000x128 .f32) (h3 : a3.IsWhole) (a4 : Memref sig .tc .vmem S128x512 .f32) (h4 : a4.IsWhole)
    (a5 : Memref sig .tc .vmem S1x512 .f32) (h5 : a5.IsWhole) (a6 : Memref sig .tc .vmem S1x2x512 .f32) (h6 : a6.IsWhole)
    (hc : cond0_0 i) (x0 x1 : Vec F S5000x128 .f32) (x2 : Vec F S128x512 .f32) (x3 : Vec F S1x512 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x2x512) hz3]
  simp only [View.readCov_unit_zero (S := S1x2x512) _ hz3, View.readAt_eq_ld, h2.read_unread, h3.read_unread, h4.read_unread,
    h5.read_unread, View.ld_unit_zero (S := S5000x128) hz2, View.ld_unit_zero (S := S128x512) hz2,
    View.ld_unit_zero (S := S1x512) hz2, View.ld_unit_zero (S := S1x2x512) hz3]

end Cert.KernelIdeal.Stats

end
-- ==== Proof.KStatsPay.lean ====
/-
  The statistics kernel's stored value, entry by entry.

  On one tile of 5000 rows the body forms u(p, j) = Σₖ (1·x(p,k) + a(p,k))·w(k,j) + b(0,j) and adds to the block's
  previous contents, at (0, 0, j), the column sum Σₚ u(p, j) and, at (0, 1, j), the column sum of squares Σₚ u(p, j)².
-/
import proofs.«107100_j65283502899905_2_alg».proof.Proof.Gen.KernelIdeal.Skeleton
import proofs.«107100_j65283502899905_2_alg».proof.Proof.Spec
import proofs.«107100_j65283502899905_2_alg».proof.Proof.LibRows
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Stats

open Idealize.ShloMosaic Idealize.ShloMosaic.ValueIdx
open Cert.KernelIdeal Cert.KernelIdeal.Gen Cert.Gin
open scoped BigOperators

/-- The first linear layer on one tile, at row p of the tile and column j. -/
def tileU (v3 v6 : S5000x128.Idx → EReal) (v10 : S128x512.Idx → EReal) (v13 : S1x512.Idx → EReal) (p : Fin 5000)
    (j : Fin 512) : EReal :=
  (∑ k : Fin 128, (one32 * v3 (ix2 p k) + v6 (ix2 p k)) * v10 (ix2 k j)) + v13 (ix2 (0 : Fin 1) j)

/-- The tile's first linear layer as the body spells it. -/
def tileLin (v3 v6 : Vec Ideal S5000x128 .f32) (v10 : Vec Ideal S128x512 .f32) (v13 : Vec Ideal S1x512 .f32) :
    FVec Ideal S5000x512 .f32 :=
  addf (matmul dot_S5000x128_S128x512_S5000x512_1_0_0_1_n_n none
      (truncf .bf16 (addf (mulf (broadcast S5000x128 (Scalar.ofBits (F := Ideal) .f32 0x3F800000#32)) v3)
        (shapeCast S5000x128 v6 shapeCasts_S5000x128_S5000x128)) bitsLt_bf16_f32)
      (truncf .bf16 v10 bitsLt_bf16_f32) (constant (F := Ideal) S5000x512 .f32 0x00000000#32))
    (broadcastTo S5000x512 (shapeCast S1x512 v13 shapeCasts_S1x512_S1x512) broadcasts_S1x512_S5000x512)

theorem tileLin_apply (v3 v6 : Vec Ideal S5000x128 .f32) (v10 : Vec Ideal S128x512 .f32) (v13 : Vec Ideal S1x512 .f32)
    (p : Fin 5000) (j : Fin 512) : tileLin v3 v6 v10 v13 (ix2 p j) = tileU v3 v6 v10 v13 p j := by
  unfold tileLin tileU
  rw [shapeCast_self, shapeCast_self]
  refine congrArg₂ (· + ·) ?_ ?_
  · exact Cert.LibRows.matmul_plain_apply dot_S5000x128_S128x512_S5000x512_1_0_0_1_n_n rfl none _ _ p j
  · exact broadcastTo_1b_ab_apply v13 broadcasts_S1x512_S5000x512 p j

/-- The stored value, with the tile's linear layer named. -/
theorem pay2_eq (v3 v6 : Vec Ideal S5000x128 .f32) (v10 : Vec Ideal S128x512 .f32) (v13 : Vec Ideal S1x512 .f32)
    (v24 : Vec Ideal S1x2x512 .f32) :
    k0_pay2 v3 v6 v10 v13 v24
      = addf (shapeCast S1x2x512 v24 shapeCasts_S1x2x512_S1x2x512)
          (shapeCast S1x2x512
            (concatenate S2x512 0
              [⟨S1x512, shapeCast S1x512 (multiReduction .add [0] S512 (tileLin v3 v6 v10 v13) 0x00000000#32
                  reduces_S5000x512_S512 (.inl rfl) rfl) shapeCasts_S512_S1x512⟩,
               ⟨S1x512, shapeCast S1x512 (multiReduction .add [0] S512
                  (mulf (tileLin v3 v6 v10 v13) (tileLin v3 v6 v10 v13)) 0x00000000#32
                  reduces_S5000x512_S512 (.inl rfl) rfl) shapeCasts_S512_S1x512⟩]
              concatenates_S1x512_S1x512_S2x512_d0)
            shapeCasts_S2x512_S1x2x512) := rfl

/-- A column sum over the tile's rows. -/
theorem colsum_apply (g : FVec Ideal S5000x512 .f32) (j : Fin 512) :
    multiReduction .add [0] S512 g 0x00000000#32 reduces_S5000x512_S512 (.inl rfl) rfl (ix1 j)
      = ∑ p : Fin 5000, g (ix2 p j) := by
  refine (Ideal.multiReduction_add_single g 0x00000000#32 reduces_S5000x512_S512 (.inl rfl) rfl (ix1 j)).trans ?_
  refine Finset.sum_congr rfl fun p _ => congrArg g ?_
  funext a
  apply Fin.ext
  match a with
  | ⟨0, _⟩ => rfl
  | ⟨1, _⟩ => rfl

/-- The stored value at (0, 0, j): the previous contents plus the tile's column sum. -/
theorem pay2_apply0 (v3 v6 : Vec Ideal S5000x128 .f32) (v10 : Vec Ideal S128x512 .f32) (v13 : Vec Ideal S1x512 .f32)
    (v24 : Vec Ideal S1x2x512 .f32) (j : Fin 512) :
    k0_pay2 v3 v6 v10 v13 v24 (ix3 (0 : Fin 1) (0 : Fin 2) j)
      = v24 (ix3 (0 : Fin 1) (0 : Fin 2) j) + ∑ p : Fin 5000, tileU v3 v6 v10 v13 p j := by
  rw [pay2_eq, shapeCast_self]
  refine congrArg₂ (· + ·) rfl ?_
  refine (shapeCast_ab_1ab_apply _ shapeCasts_S2x512_S1x2x512 (0 : Fin 1) (0 : Fin 2) j).trans ?_
  refine (concatenate_pair_apply_left (t := S2x512) (s₁ := S1x512) (s₂ := S1x512) (0 : Fin 2) _ _ concatenates_S1x512_S1x512_S2x512_d0 (ix2 (0 : Fin 2) j) rfl
    (ix2 (0 : Fin 1) j) (fun b => by match b with | ⟨0, _⟩ => rfl | ⟨1, _⟩ => rfl)).trans ?_
  refine (shapeCast_a_1a_apply _ shapeCasts_S512_S1x512 (0 : Fin 1) j).trans ?_
  refine (colsum_apply _ j).trans ?_
  exact Finset.sum_congr rfl fun p _ => tileLin_apply v3 v6 v10 v13 p j

/-- The stored value at (0, 1, j): the previous contents plus the tile's column sum of squares. -/
theorem pay2_apply1 (v3 v6 : Vec Ideal S5000x128 .f32) (v10 : Vec Ideal S128x512 .f32) (v13 : Vec Ideal S1x512 .f32)
    (v24 : Vec Ideal S1x2x512 .f32) (j : Fin 512) :
    k0_pay2 v3 v6 v10 v13 v24 (ix3 (0 : Fin 1) (1 : Fin 2) j)
      = v24 (ix3 (0 : Fin 1) (1 : Fin 2) j)
        + ∑ p : Fin 5000, tileU v3 v6 v10 v13 p j * tileU v3 v6 v10 v13 p j := by
  rw [pay2_eq, shapeCast_self]
  refine congrArg₂ (· + ·) rfl ?_
  refine (shapeCast_ab_1ab_apply _ shapeCasts_S2x512_S1x2x512 (0 : Fin 1) (1 : Fin 2) j).trans ?_
  refine (concatenate_pair_apply_right (t := S2x512) (s₁ := S1x512) (s₂ := S1x512) (0 : Fin 2) _ _ concatenates_S1x512_S1x512_S2x512_d0 (ix2 (1 : Fin 2) j) rfl rfl
    (ix2 (0 : Fin 1) j) (fun b hb => by
      match b with
      | ⟨0, _⟩ => exact absurd rfl hb
      | ⟨1, _⟩ => rfl) rfl).trans ?_
  refine (shapeCast_a_1a_apply _ shapeCasts_S512_S1x512 (0 : Fin 1) j).trans ?_
  refine (colsum_apply _ j).trans ?_
  refine Finset.sum_congr rfl fun p _ => ?_
  show tileLin v3 v6 v10 v13 (ix2 p j) * tileLin v3 v6 v10 v13 (ix2 p j) = _
  rw [tileLin_apply]

/-- The zero block the first tile of a core starts from. -/
theorem pay1_apply (i : S1x2x512.Idx) : k0_pay1 (F := Ideal) i = zero32 := rfl

end Cert.KernelIdeal.Stats

end
-- ==== Proof.KStats.lean ====
/-
  What the statistics region leaves in its result array.

  Core c's block of the [2, 2, 512] result is reset at the core's first tile and accumulates, over the core's ten
  tiles of 5000 rows, the column sums (at row 0 of the block) and the column sums of squares (at row 1) of the first
  linear layer u; it is written back after the core's last tile. So entry (c, 0, j) ends at the sum of u(r, j) over
  the core's 50000 rows, and entry (c, 1, j) at the sum of u(r, j)².
-/
import proofs.«107100_j65283502899905_2_alg».proof.Proof.KStatsPieces
import proofs.«107100_j65283502899905_2_alg».proof.Proof.KStatsPay

set_option maxRecDepth 16384

noncomputable section

namespace Cert.KernelIdeal.Stats

open Idealize.ShloMosaic Idealize.ShloMosaic.TcCoe Idealize.SL.Sem Idealize.ShloMosaic.ValueIdx
open Idealize.ShloMosaic.Pipeline (Dat)
open Cert.KernelIdeal Cert.KernelIdeal.Gen Cert.Gin
open scoped BigOperators

/-! ### The stored value at any index of the block -/

/-- What one tile adds at row a, column j of the block (coordinates as naturals). -/
def deltaN (v3 v6 : S5000x128.Idx → EReal) (v10 : S128x512.Idx → EReal) (v13 : S1x512.Idx → EReal) (a j : ℕ) : EReal :=
  if hj : j < 512 then
    (if a = 0 then ∑ p : Fin 5000, tileU v3 v6 v10 v13 p ⟨j, hj⟩
     else ∑ p : Fin 5000, tileU v3 v6 v10 v13 p ⟨j, hj⟩ * tileU v3 v6 v10 v13 p ⟨j, hj⟩)
  else 0

theorem pay2_apply (v3 v6 : Vec Ideal S5000x128 .f32) (v10 : Vec Ideal S128x512 .f32) (v13 : Vec Ideal S1x512 .f32)
    (v24 : Vec Ideal S1x2x512 .f32) (i : S1x2x512.Idx) :
    k0_pay2 v3 v6 v10 v13 v24 i = v24 i + deltaN v3 v6 v10 v13 (i 1).val (i 2).val := by
  obtain ⟨u, a, j, rfl⟩ : ∃ (u : Fin 1) (a : Fin 2) (j : Fin 512), i = ix3 u a j := ⟨i 0, i 1, i 2, eq_ix3 i⟩
  obtain rfl : u = 0 := Subsingleton.elim _ _
  show _ = v24 (ix3 0 a j) + deltaN v3 v6 v10 v13 a.val j.val
  unfold deltaN
  rw [dif_pos j.isLt]
  obtain ⟨a, ha⟩ := a
  match a, ha with
  | 0, _ => exact (pay2_apply0 v3 v6 v10 v13 v24 j).trans (by rw [if_pos rfl]; rfl)
  | 1, _ => exact (pay2_apply1 v3 v6 v10 v13 v24 j).trans (by rw [if_neg (Nat.succ_ne_zero 0)]; rfl)

/-! ### The windows' blocks, read where the tile sits -/

variable (V : (c : Dev nD) → (b : Ref sig .tc) → Buf (Elt Ideal) ((c : Thread nD τ).loc b))

theorem hN : cfg0.N = 20 := N_0

/-- Row p of tile t. -/
def tileRow (t : Fin cfg0.N) (p : Fin 5000) : Fin 100000 :=
  ⟨t.val * 5000 + p.val, by have := lt_of_lt_of_eq t.isLt hN; have := p.isLt; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 10 ∧ win0_4.index t 1 = 0 ∧ win0_4.index t 2 = 0 :=
  (by decide +kernel : ∀ t : Fin grid0.N, win0_4.index t 0 = t.val / 10 ∧ win0_4.index t 1 = 0 ∧ win0_4.index t 2 = 0)

theorem blk0_apply (c : Dev nD) (t : Fin cfg0.N) (p : Fin 5000) (k : Fin 128) :
    (iblk0 V c 0 t : Vec Ideal S5000x128 .f32) (ix2 p k) = V c (Pipeline.arrRef spec0 0) (ix2 (tileRow t p) k) := by
  unfold iblk0
  rw [View.read_apply]
  refine congrArg (V c (Pipeline.arrRef spec0 0)) ?_
  funext a
  apply Fin.ext
  match a with
  | ⟨0, _⟩ => show win0_0.index t 0 * 5000 + 1 * p.val = t.val * 5000 + p.val; rw [(idx0 t).1]; omega
  | ⟨1, _⟩ => show win0_0.index t 1 * 128 + 1 * k.val = k.val; rw [(idx0 t).2]; omega

theorem blk1_apply (c : Dev nD) (t : Fin cfg0.N) (p : Fin 5000) (k : Fin 128) :
    (iblk0 V c 1 t : Vec Ideal S5000x128 .f32) (ix2 p k) = V c (Pipeline.arrRef spec0 1) (ix2 (tileRow t p) k) := by
  unfold iblk0
  rw [View.read_apply]
  refine congrArg (V c (Pipeline.arrRef spec0 1)) ?_
  funext a
  apply Fin.ext
  match a with
  | ⟨0, _⟩ => show win0_1.index t 0 * 5000 + 1 * p.val = t.val * 5000 + p.val; rw [(idx1 t).1]; omega
  | ⟨1, _⟩ => show win0_1.index t 1 * 128 + 1 * k.val = k.val; rw [(idx1 t).2]; omega

theorem blk2_apply (c : Dev nD) (t : Fin cfg0.N) (k : Fin 128) (j : Fin 512) :
    (iblk0 V c 2 t : Vec Ideal S128x512 .f32) (ix2 k j) = V c (Pipeline.arrRef spec0 2) (ix2 k j) := by
  unfold iblk0
  rw [View.read_apply]
  refine congrArg (V c (Pipeline.arrRef spec0 2)) ?_
  funext a
  apply Fin.ext
  match a with
  | ⟨0, _⟩ => show win0_2.index t 0 * 128 + 1 * k.val = k.val; rw [(idx2 t).1]; omega
  | ⟨1, _⟩ => show win0_2.index t 1 * 512 + 1 * j.val = j.val; rw [(idx2 t).2]; omega

theorem blk3_apply (c : Dev nD) (t : Fin cfg0.N) (j : Fin 512) :
    (iblk0 V c 3 t : Vec Ideal S1x512 .f32) (ix2 (0 : Fin 1) j) = V c (Pipeline.arrRef spec0 3) (ix2 (0 : Fin 1) j) := by
  unfold iblk0
  rw [View.read_apply]
  refine congrArg (V c (Pipeline.arrRef spec0 3)) ?_
  funext a
  apply Fin.ext
  match a with
  | ⟨0, _⟩ => show win0_3.index t 0 * 1 + 1 * 0 = 0; rw [(idx3 t).1]
  | ⟨1, _⟩ => show win0_3.index t 1 * 512 + 1 * j.val = j.val; rw [(idx3 t).2]; omega

/-- The first linear layer over the arrays the region finds: x, the aggregated messages, w1 and the bias row. -/
def Uof (c : Dev nD) (r : Fin 100000) (j : Fin 512) : EReal :=
  (∑ k : Fin 128, hid (V c (Pipeline.arrRef spec0 0)) (V c (Pipeline.arrRef spec0 1)) r k
      * V c (Pipeline.arrRef spec0 2) (ix2 k j)) + V c (Pipeline.arrRef spec0 3) (ix2 (0 : Fin 1) j)

/-- On tile t the body's linear layer is the whole array's at the tile's rows. -/
theorem tile_eq (c : Dev nD) (t : Fin cfg0.N) (p : Fin 5000) (j : Fin 512) :
    tileU (iblk0 V c 0 t) (iblk0 V c 1 t) (iblk0 V c 2 t) (iblk0 V c 3 t) p j = Uof V c (tileRow t p) j := by
  unfold tileU Uof hid
  rw [blk3_apply V c t j]
  refine congrArg₂ (· + ·) (Finset.sum_congr rfl fun k _ => ?_) rfl
  rw [blk0_apply V c t p k, blk1_apply V c t p k, blk2_apply V c t k j]

/-! ### The accumulation over a core's ten tiles -/

/-- What tile n adds to the block at row a, column j. -/
def addend (c : Dev nD) (n a j : ℕ) : EReal :=
  if h : n < cfg0.N then
    deltaN (iblk0 V c 0 ⟨n, h⟩) (iblk0 V c 1 ⟨n, h⟩) (iblk0 V c 2 ⟨n, h⟩) (iblk0 V c 3 ⟨n, h⟩) a j
  else 0

/-- After a core's last tile the block holds zero plus the ten tiles' addends. -/
theorem outs_flush (c : Dev nD) (n : ℕ) (hn : n < cfg0.N) (h9 : n % 10 = 9) (i : S1x2x512.Idx) :
    outsAt0 V c n hn i = zero32 + ∑ s ∈ Finset.range 10, addend V c (10 * (n / 10) + s) (i 1).val (i 2).val := by
  have h' : 10 * (n / 10) + n % 10 < cfg0.N := by rw [Nat.div_add_mod]; exact hn
  have e := Pipeline.eq_accAt_of_mod (N := cfg0.N) (fun n h => outsAt0 V c n h) 10
    (fun n h => k0_pay2 (iblk0 V c 0 ⟨n, h⟩) (iblk0 V c 1 ⟨n, h⟩) (iblk0 V c 2 ⟨n, h⟩) (iblk0 V c 3 ⟨n, h⟩) (k0_pay1 (F := Ideal)))
    (fun n h acc => k0_pay2 (iblk0 V c 0 ⟨n, h⟩) (iblk0 V c 1 ⟨n, h⟩) (iblk0 V c 2 ⟨n, h⟩) (iblk0 V c 3 ⟨n, h⟩) acc)
    (fun n h hm => (outsAt0_A V c ⟨n, h⟩ hm).trans (out_A ..))
    (fun n h hm => (outsAt0_B V c ⟨n + 1, h⟩ hm).trans (out_B ..))
    (by norm_num) n hn h'
  have e2 := Pipeline.accAt_add_apply (N := cfg0.N)
    (fun n h => k0_pay2 (iblk0 V c 0 ⟨n, h⟩) (iblk0 V c 1 ⟨n, h⟩) (iblk0 V c 2 ⟨n, h⟩) (iblk0 V c 3 ⟨n, h⟩) (k0_pay1 (F := Ideal)))
    (fun n h acc => k0_pay2 (iblk0 V c 0 ⟨n, h⟩) (iblk0 V c 1 ⟨n, h⟩) (iblk0 V c 2 ⟨n, h⟩) (iblk0 V c 3 ⟨n, h⟩) acc)
    (fun _ => zero32) (fun n i => addend V c n (i 1).val (i 2).val) (10 * (n / 10)) 9
    (fun h i => (pay2_apply _ _ _ _ _ i).trans (by unfold addend; rw [dif_pos h]; rfl))
    (fun n h acc i _ _ => (pay2_apply _ _ _ _ _ i).trans (by unfold addend; rw [dif_pos h]))
    (n % 10) (by omega) h' i
  rw [e]
  refine e2.trans ?_
  rw [h9]

/-! ### The result array -/

/-- The result array's contents. -/
def statsArr (c : Dev nD) : Buf (Elt Ideal) ((c : Thread nD τ).loc main_v15) :=
  fun i => zero32 + ∑ s ∈ Finset.range 10, addend V c (10 * (i 0).val + s) (i 1).val (i 2).val

theorem flushed_eq (c : Dev nD) (t : Fin cfg0.N) (hf : (cfg0.win 4).flush t = true) :
    (dat0 V c).flushed 4 t = ((cfg0.win 4).blk t).view.read (Elt Ideal) (statsArr V c) := by
  have h9 : t.val % 10 = 9 := (flush0_4 t).mp hf
  show (cfg0.win 4).cut (grid0.coords t) ((dat0 V c).after 4 t) = _
  rw [after0_4]
  funext y
  rw [View.read_apply]
  refine (outs_flush V c t.val t.isLt h9 y).trans ?_
  have e0 : ((((cfg0.win 4).blk t).view.emb y) 0).val = t.val / 10 := by
    show win0_4.index t 0 * 1 + 1 * (y 0).val = t.val / 10
    have hy0 : (y 0).val < 1 := (y 0).isLt
    rw [(idx4 t).1]; omega
  have e1 : ((((cfg0.win 4).blk t).view.emb y) 1).val = (y 1).val := by
    show win0_4.index t 1 * 2 + 1 * (y 1).val = (y 1).val
    rw [(idx4 t).2.1]; omega
  have e2 : ((((cfg0.win 4).blk t).view.emb y) 2).val = (y 2).val := by
    show win0_4.index t 2 * 512 + 1 * (y 2).val = (y 2).val
    rw [(idx4 t).2.2]; omega
  unfold statsArr
  rw [e0, e1, e2]
  exact (cast_eq _ _).symm

theorem stats_final (c : Dev nD) : (dat0 V c).arrAt 4 cfg0.N = statsArr V c :=
  (dat0 V c).arrAt_eq_of_cover 4 (statsArr V c) (flushed_eq V c) fun i => by
    have hi0 : (i 0 : Nat) < 2 := (i 0).isLt
    have hi1 : (i 1 : Nat) < 2 := (i 1).isLt
    have hi2 : (i 2 : Nat) < 512 := (i 2).isLt
    have ht : 10 * (i 0 : Nat) + 9 < cfg0.N := by rw [hN]; omega
    refine ⟨⟨10 * (i 0 : Nat) + 9, ht⟩, (flush0_4 _).mpr (by show (10 * (i 0 : Nat) + 9) % 10 = 9; omega), ?_⟩
    show i ∈ ((View.whole main_v15).slice (win0_4.rect ⟨10 * (i 0 : Nat) + 9, ht⟩)).set
    rw [View.set_slice_whole, Rect.mem_set_unit]
    have hx := idx4 ⟨10 * (i 0 : Nat) + 9, ht⟩
    intro a
    match a with
    | ⟨0, _⟩ =>
      show win0_4.index ⟨10 * (i 0 : Nat) + 9, ht⟩ 0 * 1 ≤ (i 0 : Nat) ∧ (i 0 : Nat) < win0_4.index ⟨10 * (i 0 : Nat) + 9, ht⟩ 0 * 1 + 1
      rw [hx.1]; show (10 * (i 0 : Nat) + 9) / 10 * 1 ≤ (i 0 : Nat) ∧ (i 0 : Nat) < (10 * (i 0 : Nat) + 9) / 10 * 1 + 1; omega
    | ⟨1, _⟩ =>
      show win0_4.index ⟨10 * (i 0 : Nat) + 9, ht⟩ 1 * 2 ≤ (i 1 : Nat) ∧ (i 1 : Nat) < win0_4.index ⟨10 * (i 0 : Nat) + 9, ht⟩ 1 * 2 + 2
      rw [hx.2.1]; omega
    | ⟨2, _⟩ =>
      show win0_4.index ⟨10 * (i 0 : Nat) + 9, ht⟩ 2 * 512 ≤ (i 2 : Nat) ∧ (i 2 : Nat) < win0_4.index ⟨10 * (i 0 : Nat) + 9, ht⟩ 2 * 512 + 512
      rw [hx.2.2]; omega

/-- Entry (cc, 0, j): the core's total of column j. -/
theorem stats_entry0 (c : Dev nD) (cc : Fin 2) (j : Fin 512) :
    (dat0 V c).arrAt 4 cfg0.N (ix3 cc (0 : Fin 2) j) = part1 (Uof V c) cc j := by
  rw [stats_final]
  show zero32 + ∑ s ∈ Finset.range 10, addend V c (10 * cc.val + s) 0 j.val = _
  rw [zero32_eq, zero_add, Finset.sum_range]
  unfold part1
  refine Finset.sum_congr rfl fun i _ => ?_
  have hlt : 10 * cc.val + i.val < cfg0.N := by rw [hN]; have := cc.isLt; have := i.isLt; omega
  unfold addend deltaN
  rw [dif_pos hlt, dif_pos j.isLt, if_pos rfl]
  refine Finset.sum_congr rfl fun p _ => ?_
  refine (tile_eq V c ⟨10 * cc.val + i.val, hlt⟩ p j).trans (congrArg (fun r => Uof V c r j) (Fin.ext ?_))
  show (10 * cc.val + i.val) * 5000 + p.val = (cc.val * 10 + i.val) * 5000 + p.val
  omega

/-- Entry (cc, 1, j): the core's total of the squares of column j. -/
theorem stats_entry1 (c : Dev nD) (cc : Fin 2) (j : Fin 512) :
    (dat0 V c).arrAt 4 cfg0.N (ix3 cc (1 : Fin 2) j) = part2 (Uof V c) cc j := by
  rw [stats_final]
  show zero32 + ∑ s ∈ Finset.range 10, addend V c (10 * cc.val + s) 1 j.val = _
  rw [zero32_eq, zero_add, Finset.sum_range]
  unfold part2
  refine Finset.sum_congr rfl fun i _ => ?_
  have hlt : 10 * cc.val + i.val < cfg0.N := by rw [hN]; have := cc.isLt; have := i.isLt; omega
  unfold addend deltaN
  rw [dif_pos hlt, dif_pos j.isLt, if_neg (by decide)]
  refine Finset.sum_congr rfl fun p _ => ?_
  have hr : tileRow ⟨10 * cc.val + i.val, hlt⟩ p = row cc i p := Fin.ext (by
    show (10 * cc.val + i.val) * 5000 + p.val = (cc.val * 10 + i.val) * 5000 + p.val
    omega)
  rw [tile_eq V c ⟨10 * cc.val + i.val, hlt⟩ p j, hr]

end Cert.KernelIdeal.Stats

end
-- ==== Proof.KHost1.lean ====
/-
  The program's host operations between its two regions, read entry by entry.

  Between the regions the host turns the first region's per-core column totals S (for each of two cores, the total of each column
  and of its squares) into the normalisation's scale and shift rows: the mean (0 + Σ over the cores of the totals)/N,
  the mean square likewise, the variance max(mean square − mean², 0), ρ = 1/√(variance + ε), the scale γ·ρ and the
  shift β − (mean·γ)·ρ. Arrays no operation of a stretch writes keep their contents.
-/
import proofs.«107100_j65283502899905_2_alg».proof.Proof.Gen.KernelIdeal.Launch
import proofs.«107100_j65283502899905_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.Gin.KSide

open Idealize.ShloMosaic Idealize.ShloMosaic.ValueIdx Idealize.ShloMosaic.StableHlo Idealize.SL.Sem
open Cert.KernelIdeal Cert.KernelIdeal.Gen
open scoped BigOperators

variable (W : Valuation τ sig (Elt Ideal))

/-! ## The second stretch -/

/-- The column means, mean squares and reciprocal standard deviations the host forms from the two cores' totals. -/
def meanOf (S : S2x2x512.Idx → EReal) (j : Fin 512) : EReal :=
  Ideal.div (Cert.Gin.zero32 + ∑ cc : Fin 2, S (ix3 cc (0 : Fin 2) j)) Cert.Gin.cnt32

def msqOf (S : S2x2x512.Idx → EReal) (j : Fin 512) : EReal :=
  Ideal.div (Cert.Gin.zero32 + ∑ cc : Fin 2, S (ix3 cc (1 : Fin 2) j)) Cert.Gin.cnt32

def rstdOf (S : S2x2x512.Idx → EReal) (j : Fin 512) : EReal :=
  Ideal.rsqrt (max (msqOf S j - meanOf S j * meanOf S j) Cert.Gin.zero32 + Cert.Gin.eps32)

/-- The scale γ·ρ and the shift β − (mean·γ)·ρ of column j. -/
def scaleOf (g : S512.Idx → EReal) (S : S2x2x512.Idx → EReal) (j : Fin 512) : EReal :=
  g (ix1 j) * rstdOf S j

def shiftOf (g b : S512.Idx → EReal) (S : S2x2x512.Idx → EReal) (j : Fin 512) : EReal :=
  b (ix1 j) - (meanOf S j * g (ix1 j)) * rstdOf S j

/-- The sum over the cores, from a zero, read at row r (0: the totals, 1: the totals of the squares) and column j. -/
theorem coreSum_read (S : S2x2x512.Idx → EReal) (r : Fin 2) (j : Fin 512) :
    Host.reduceAdd (F := Ideal) (φ := .f32) S (constant (F := Ideal) S_ .f32 0x00000000#32)
        Facts₀.reducesTo_S2x2x512_S2x512_d0 Facts₀.h_S_ (ix2 r j)
      = Cert.Gin.zero32 + ∑ cc : Fin 2, S (ix3 cc r j) := by
  have h : S2x2x512.Reduces [0] S2x512 := by decide
  refine (Ideal.hostReduceAdd_single Facts₀.reducesTo_S2x2x512_S2x512_d0 h S _ (ix2 r j)).trans ?_
  show Cert.Gin.zero32 + ∑ k : Fin 2, S (h.lift (ix2 r j) k) = _
  refine congrArg (fun t => Cert.Gin.zero32 + t) (Finset.sum_congr rfl fun k _ => congrArg S ?_)
  funext c
  apply Fin.ext
  fin_cases c <;> rfl

/-- The mean of column j as the host computes it: row 0 of the summed totals, as a vector, divided by the row count. -/
theorem mean_read (S : S2x2x512.Idx → EReal) (j : Fin 512) :
    Host.divf (F := Ideal) (φ := .f32)
        (shapeCast S512
          (extractStridedSlice S1x512 ![0, 0]
            (Host.reduceAdd (F := Ideal) (φ := .f32) S (constant (F := Ideal) S_ .f32 0x00000000#32)
              Facts₀.reducesTo_S2x2x512_S2x512_d0 Facts₀.h_S_)
            Facts₀.slices_S2x512_S1x512_0_0)
          Facts₀.shapeCasts_S1x512_S512)
        (broadcastInDim S512 ![] Facts₀.bcast_S_S512 (constant (F := Ideal) S_ .f32 0x47C35000#32)) (ix1 j)
      = meanOf S j := by
  unfold meanOf
  refine congrArg (fun t => Ideal.div t Cert.Gin.cnt32) ?_
  refine (shapeCast_1a_a_apply (a := 512) _ _ j).trans ?_
  refine (slice2_axis0_apply (n0 := 2) (n1 := 512) (m := 1) 0 _ _ (0 : Fin 1) j (0 : Fin 2) rfl).trans ?_
  exact coreSum_read S 0 j

/-- The mean square of column j: row 1 of the summed totals, as a vector, divided by the row count. -/
theorem msq_read (S : S2x2x512.Idx → EReal) (j : Fin 512) :
    Host.divf (F := Ideal) (φ := .f32)
        (shapeCast S512
          (extractStridedSlice S1x512 ![1, 0]
            (Host.reduceAdd (F := Ideal) (φ := .f32) S (constant (F := Ideal) S_ .f32 0x00000000#32)
              Facts₀.reducesTo_S2x2x512_S2x512_d0 Facts₀.h_S_)
            Facts₀.slices_S2x512_S1x512_1_0)
          Facts₀.shapeCasts_S1x512_S512)
        (broadcastInDim S512 ![] Facts₀.bcast_S_S512 (constant (F := Ideal) S_ .f32 0x47C35000#32)) (ix1 j)
      = msqOf S j := by
  unfold msqOf
  refine congrArg (fun t => Ideal.div t Cert.Gin.cnt32) ?_
  refine (shapeCast_1a_a_apply (a := 512) _ _ j).trans ?_
  refine (slice2_axis0_apply (n0 := 2) (n1 := 512) (m := 1) 1 _ _ (0 : Fin 1) j (1 : Fin 2) rfl).trans ?_
  exact coreSum_read S 1 j

/-- The scale and the shift as functions of the mean p and the mean square q. -/
def scaleOf' (g : S512.Idx → EReal) (j : Fin 512) (p q : EReal) : EReal :=
  g (ix1 j) * Ideal.rsqrt (max (q - p * p) Cert.Gin.zero32 + Cert.Gin.eps32)

def shiftOf' (g b : S512.Idx → EReal) (j : Fin 512) (p q : EReal) : EReal :=
  b (ix1 j) - (p * g (ix1 j)) * Ideal.rsqrt (max (q - p * p) Cert.Gin.zero32 + Cert.Gin.eps32)

theorem scaleOf_eq (g : S512.Idx → EReal) (S : S2x2x512.Idx → EReal) (j : Fin 512) :
    scaleOf g S j = scaleOf' g j (meanOf S j) (msqOf S j) := rfl

theorem shiftOf_eq (g b : S512.Idx → EReal) (S : S2x2x512.Idx → EReal) (j : Fin 512) :
    shiftOf g b S j = shiftOf' g b j (meanOf S j) (msqOf S j) := rfl

/-- THE SCALE ROW after the second stretch: γ times the reciprocal standard deviation of the first region's totals. -/
theorem host1_scale (j : Fin 512) :
    StableHlo.after (hostOps1 (F := Ideal)) W (Proc.devRef .tc main_v33) (ix2 (0 : Fin 1) j)
      = scaleOf (W (Proc.devRef .tc main_arg6)) (W (Proc.devRef .tc main_v15)) j := by
  after_results_simp
  refine (shapeCast_a_1a_apply (a := 512) _ _ (0 : Fin 1) j).trans ?_
  exact congrArg₂ (fun p q => scaleOf' (W (Proc.devRef .tc main_arg6)) j p q)
    (mean_read (W (Proc.devRef .tc main_v15)) j) (msq_read (W (Proc.devRef .tc main_v15)) j)

/-- THE SHIFT ROW after the second stretch: β minus mean times γ times the reciprocal standard deviation. -/
theorem host1_shift (j : Fin 512) :
    StableHlo.after (hostOps1 (F := Ideal)) W (Proc.devRef .tc main_v37) (ix2 (0 : Fin 1) j)
      = shiftOf (W (Proc.devRef .tc main_arg6)) (W (Proc.devRef .tc main_arg7)) (W (Proc.devRef .tc main_v15)) j := by
  after_results_simp
  refine (shapeCast_a_1a_apply (a := 512) _ _ (0 : Fin 1) j).trans ?_
  exact congrArg₂ (fun p q => shiftOf' (W (Proc.devRef .tc main_arg6)) (W (Proc.devRef .tc main_arg7)) j p q)
    (mean_read (W (Proc.devRef .tc main_v15)) j) (msq_read (W (Proc.devRef .tc main_v15)) j)

/-- The second stretch writes none of the arrays the second region reads besides its two rows. -/
theorem host1_keep_arg0 :
    StableHlo.after (hostOps1 (F := Ideal)) W (Proc.devRef .tc main_arg0) = W (Proc.devRef .tc main_arg0) := by
  after_results
theorem host1_keep_v12 :
    StableHlo.after (hostOps1 (F := Ideal)) W (Proc.devRef .tc main_v12) = W (Proc.devRef .tc main_v12) := by
  after_results
theorem host1_keep_arg4 :
    StableHlo.after (hostOps1 (F := Ideal)) W (Proc.devRef .tc main_arg4) = W (Proc.devRef .tc main_arg4) := by
  after_results
theorem host1_keep_v13 :
    StableHlo.after (hostOps1 (F := Ideal)) W (Proc.devRef .tc main_v13) = W (Proc.devRef .tc main_v13) := by
  after_results
theorem host1_keep_arg8 :
    StableHlo.after (hostOps1 (F := Ideal)) W (Proc.devRef .tc main_arg8) = W (Proc.devRef .tc main_arg8) := by
  after_results
theorem host1_keep_v14 :
    StableHlo.after (hostOps1 (F := Ideal)) W (Proc.devRef .tc main_v14) = W (Proc.devRef .tc main_v14) := by
  after_results

end Cert.Gin.KSide

end
-- ==== Proof.KValue.lean ====
/-
  The kernel program's result, entry by entry, as the layer's mathematics. The result array holds what the
  perceptron region's write-backs leave: at row r, column o the two-layer perceptron's entry of the arrays that region
  finds. Traced back through the program those arrays are the node features and the weight matrices as launched, the
  aggregated messages and the bias rows the first stretch of host operations computes, and the scale and shift rows the
  second stretch computes from the statistics the first region leaves: the per-core column totals of the first linear
  layer and of its squares. So the scale row is γ·ρ and the shift row β − (μ·γ)·ρ of the normalisation accumulated on two
  cores, and the entry is the second linear layer of the rectified, normalised first layer.
-/
import proofs.«107100_j65283502899905_2_alg».proof.Proof.KKeep
import proofs.«107100_j65283502899905_2_alg».proof.Proof.KMlp
import proofs.«107100_j65283502899905_2_alg».proof.Proof.KStats
import proofs.«107100_j65283502899905_2_alg».proof.Proof.KHost1

noncomputable section

namespace Cert.Gin.KSide

open Idealize.ShloMosaic Idealize.ShloMosaic.TcCoe Idealize.SL.Sem Idealize.ShloMosaic.ValueIdx
open Idealize.ShloMosaic.StableHlo
open Cert.KernelIdeal Cert.KernelIdeal.Gen Cert.Gin
open Idealize.ShloMosaic.Pipeline (Dat)
open scoped BigOperators

/-- The perceptron's entry is the second linear layer of the rectified, normalised first layer, when the first bias
    row reads the bias vector, the scale and shift rows read the normalisation's scale and shift of the first layer,
    and the second bias row reads the second bias vector. -/
theorem mlpEntry_spec (x A : S100000x128.Idx → EReal) (w1 : S128x512.Idx → EReal) (b1r sc sh : S1x512.Idx → EReal)
    (w2 : S512x256.Idx → EReal) (b2r : S1x256.Idx → EReal) (b1 γ β : S512.Idx → EReal) (b2 : S256.Idx → EReal)
    (hb1 : ∀ j : Fin 512, b1r (ix2 (0 : Fin 1) j) = b1 (ix1 j))
    (hsc : ∀ j : Fin 512, sc (ix2 (0 : Fin 1) j) = scaleAcc (lin1 x A w1 b1) γ j)
    (hsh : ∀ j : Fin 512, sh (ix2 (0 : Fin 1) j) = shiftAcc (lin1 x A w1 b1) γ β j)
    (hb2 : ∀ o : Fin 256, b2r (ix2 (0 : Fin 1) o) = b2 (ix1 o)) (r : Fin 100000) (o : Fin 256) :
    mlpEntry x A w1 b1r sc sh w2 b2r r o = lin2 (bnAcc (lin1 x A w1 b1) γ β) w2 b2 r o := by
  unfold mlpEntry lin2 bnAcc
  simp only [hb1, hsc, hsh, hb2]
  rfl

section Fold

variable (m : (ℓ : Loc nD τ sig) → Buf (Elt Ideal) ℓ) (ρ : Dev nD → PrngReg)

/-- The first linear layer of the launch arrays: the node features, their aggregated neighbour messages, the first
    weight matrix and bias. -/
abbrev kerU (c : Dev nD) : Fin 100000 → Fin 512 → EReal :=
  lin1 (m ((c : Thread nD τ).loc main_arg0))
    (kerAgg (m ((c : Thread nD τ).loc main_arg0)) (m ((c : Thread nD τ).loc main_arg1))
      (m ((c : Thread nD τ).loc main_arg2)) (m ((c : Thread nD τ).loc main_arg3)))
    (m ((c : Thread nD τ).loc main_arg4)) (m ((c : Thread nD τ).loc main_arg5))

/-- After the first stretch: the aggregated messages of the launch arrays, and the two bias vectors as rows. -/
theorem W1_agg (c : Dev nD) :
    W1 m ρ c (Proc.devRef .tc main_v12)
      = kerAgg (m ((c : Thread nD τ).loc main_arg0)) (m ((c : Thread nD τ).loc main_arg1))
          (m ((c : Thread nD τ).loc main_arg2)) (m ((c : Thread nD τ).loc main_arg3)) :=
  host0_agg (W0 m ρ c)
theorem W1_b1 (c : Dev nD) (j : Fin 512) :
    W1 m ρ c (Proc.devRef .tc main_v13) (ix2 (0 : Fin 1) j) = m ((c : Thread nD τ).loc main_arg5) (ix1 j) :=
  host0_b1 (W0 m ρ c) j
theorem W1_b2 (c : Dev nD) (o : Fin 256) :
    W1 m ρ c (Proc.devRef .tc main_v14) (ix2 (0 : Fin 1) o) = m ((c : Thread nD τ).loc main_arg9) (ix1 o) :=
  host0_b2 (W0 m ρ c) o

/-- The first linear layer over the arrays the statistics region finds is that of the launch arrays. -/
theorem Uof_eq (c : Dev nD) : Cert.KernelIdeal.Stats.Uof (V1 m ρ) c = kerU m c := by
  funext r j
  unfold Cert.KernelIdeal.Stats.Uof
  rw [V1_x m ρ c, V1_w1 m ρ c, V1_agg m ρ c, V1_b1 m ρ c, W1_agg m ρ c, W1_b1 m ρ c j]
  rfl

/-- The mean, the mean square and the reciprocal deviation the second stretch computes from the statistics array are
    those of the normalisation accumulated on two cores. -/
theorem mean_eq (c : Dev nD) (j : Fin 512) :
    meanOf (W2 m ρ c (Proc.devRef .tc main_v15)) j = meanAcc (kerU m c) j := by
  unfold meanOf meanAcc
  rw [W2_stats m ρ c]
  simp only [Cert.KernelIdeal.Stats.stats_entry0 (V1 m ρ) c, Uof_eq m ρ c]
theorem msq_eq (c : Dev nD) (j : Fin 512) :
    msqOf (W2 m ρ c (Proc.devRef .tc main_v15)) j = msqAcc (kerU m c) j := by
  unfold msqOf msqAcc
  rw [W2_stats m ρ c]
  simp only [Cert.KernelIdeal.Stats.stats_entry1 (V1 m ρ) c, Uof_eq m ρ c]
theorem rstd_eq (c : Dev nD) (j : Fin 512) :
    rstdOf (W2 m ρ c (Proc.devRef .tc main_v15)) j = rstdAcc (kerU m c) j := by
  unfold rstdOf rstdAcc
  rw [mean_eq m ρ c j, msq_eq m ρ c j]

/-- The scale and shift rows the second region finds. -/
theorem W3_scale (c : Dev nD) (j : Fin 512) :
    W3 m ρ c (Proc.devRef .tc main_v33) (ix2 (0 : Fin 1) j)
      = scaleAcc (kerU m c) (m ((c : Thread nD τ).loc main_arg6)) j := by
  refine (host1_scale (W2 m ρ c) j).trans ?_
  unfold scaleOf scaleAcc
  rw [W2_gamma m ρ c, rstd_eq m ρ c j]
theorem W3_shift (c : Dev nD) (j : Fin 512) :
    W3 m ρ c (Proc.devRef .tc main_v37) (ix2 (0 : Fin 1) j)
      = shiftAcc (kerU m c) (m ((c : Thread nD τ).loc main_arg6)) (m ((c : Thread nD τ).loc main_arg7)) j := by
  refine (host1_shift (W2 m ρ c) j).trans ?_
  unfold shiftOf shiftAcc
  rw [W2_gamma m ρ c, W2_beta m ρ c, rstd_eq m ρ c j, mean_eq m ρ c j]

/-- THE KERNEL PROGRAM'S RESULT at row r, column o. -/
theorem ker_value (c : Dev nD) (r : Fin 100000) (o : Fin 256) :
    W4 m ρ c (Proc.devRef .tc main_v38) (ix2 r o)
      = lin2 (bnAcc (kerU m c) (m ((c : Thread nD τ).loc main_arg6)) (m ((c : Thread nD τ).loc main_arg7)))
          (m ((c : Thread nD τ).loc main_arg8)) (m ((c : Thread nD τ).loc main_arg9)) r o := by
  refine (congrFun (W4_out m ρ c) (ix2 r o)).trans ((mlp_arr (V3 m ρ) c r o).trans ?_)
  rw [V3_x m ρ c, V3_agg m ρ c, V3_w1 m ρ c, V3_b1 m ρ c, V3_scale m ρ c, V3_shift m ρ c, V3_w2 m ρ c, V3_b2 m ρ c,
    W1_agg m ρ c]
  exact mlpEntry_spec _ _ _ _ _ _ _ _ (m ((c : Thread nD τ).loc main_arg5)) (m ((c : Thread nD τ).loc main_arg6))
    (m ((c : Thread nD τ).loc main_arg7)) (m ((c : Thread nD τ).loc main_arg9))
    (W1_b1 m ρ c) (W3_scale m ρ c) (W3_shift m ρ c) (W1_b2 m ρ c) r o

end Fold

end Cert.Gin.KSide

end
-- ==== Proof.RefRunOps.lean ====
/-
  The reference program's layer, stage by stage, and its operations as a list.

  The reference computes, from node features x, edge endpoints src and dst, edge weights ew and the two linear
  layers' and the normalisation's parameters: the aggregated messages A (row src e of x times ew e, added into row
  dst e of a zero array); u = (1·x + A)·w1 + b1; the column means and variances of u over its 100000 rows; the
  normalised columns ((u − μ)·rsqrt(var + ε))·γ + β; and max(·, 0)·w2 + b2. Each of these is named here as a function
  of the arrays it reads. The program's seventy-five host operations are listed in six consecutive windows, one per
  stage, each with the list of buffers it writes.
-/
import proofs.«107100_j65283502899905_2_alg».proof.Proof.Gen.ReferenceIdeal
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## The layer's stages, as functions of the arrays they read

Each stage is the composition of the host operations that produce one named value of the program from the values
it reads; the last, `refVal`, is the whole layer as a function of its ten arguments. -/

/-- The aggregated messages: row `src e` of `x` (a negative index counted from the end), scaled by the edge weight
    `ew e`, added into row `dst e` of a zero array, over all edges `e`. -/
def refAgg (x : FVec Ideal S100000x128 .f32) (src dst : IVec S1600000 32) (ew : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The first linear layer: `(1·x + A)·w1 + b1`, the bias repeated down the rows. -/
def refU (x A : FVec Ideal S100000x128 .f32) (w1 : FVec Ideal S128x512 .f32) (b1 : FVec Ideal S512 .f32) :
    FVec Ideal S100000x512 .f32 :=
  addf
    (Host.dotGeneral dot_S100000x128_S128x512_S100000x512_1_0_0_1_n_n none
      (addf (mulf (broadcastInDim S100000x128 ![] bcast_S_S100000x128 (constant (F := Ideal) S_ .f32 0x3F800000#32)) x) A) w1)
    (broadcastInDim S100000x512 ![0, 1] bcast_S1x512_S100000x512_0_1 (broadcastInDim S1x512 ![1] bcast_S512_S1x512_1 b1))

/-- The column means: the column sums from zero, divided by the row count. -/
def refMean (u : FVec Ideal S100000x512 .f32) : FVec Ideal S512 .f32 :=
  Host.divf (Host.reduceAdd u (constant (F := Ideal) S_ .f32 0x00000000#32) reducesTo_S100000x512_S512_d0 h_S_)
    (broadcastInDim S512 ![] bcast_S_S512 (constant (F := Ideal) S_ .f32 0x47C35000#32))

/-- The deviations from the column means, as the variance's own computation takes them: the column sums made a row,
    divided by the row count there, repeated down the rows and subtracted. -/
def refDev (u : FVec Ideal S100000x512 .f32) : FVec Ideal S100000x512 .f32 :=
  subf u
    (broadcastInDim S100000x512 ![0, 1] bcast_S1x512_S100000x512_0_1
      (Host.divf (broadcastInDim S1x512 ![1] bcast_S512_S1x512_1 (Host.reduceAdd u (constant (F := Ideal) S_ .f32 0x00000000#32) reducesTo_S100000x512_S512_d0 h_S_))
        (broadcastInDim S1x512 ![] bcast_S_S1x512 (constant (F := Ideal) S_ .f32 0x47C35000#32))))

/-- The divisor of the variance: the row count less the correction `z` converted to a float. -/
def refCnt (z : IVec S_ 32) : FVec Ideal S_ .f32 :=
  subf (constant (F := Ideal) S_ .f32 0x47C35000#32) (sitofp (F := Ideal) .f32 z)

/-- The column variances with correction `z`: the sums of the squared deviations from zero, divided by the divisor,
    kept where the divisor is positive and replaced by the not-a-number pattern where it is not. -/
def refVarC (u : FVec Ideal S100000x512 .f32) (z : IVec S_ 32) : FVec Ideal S512 .f32 :=
  select (broadcastInDim S512 ![] bcast_S_S512 (cmpf .ogt (refCnt z) (constant (F := Ideal) S_ .f32 0x00000000#32)))
    (Host.divf (Host.reduceAdd (mulf (refDev u) (refDev u)) (constant (F := Ideal) S_ .f32 0x00000000#32) reducesTo_S100000x512_S512_d0 h_S_)
      (broadcastInDim S512 ![] bcast_S_S512 (refCnt z)))
    (broadcastInDim S512 ![] bcast_S_S512 (constant (F := Ideal) S_ .f32 0x7FC00000#32))

/-- The column variances as the program takes them: with correction zero. -/
def refVar (u : FVec Ideal S100000x512 .f32) : FVec Ideal S512 .f32 :=
  refVarC u (constantI S_ 32 0#32)

/-- The normalisation from a mean row `μ` and a variance row `v`: `((u − μ)·rsqrt(v + ε))·γ + β`, every row vector
    repeated down the rows. -/
def refNorm (u : FVec Ideal S100000x512 .f32) (μ v γ β : FVec Ideal S512 .f32) : FVec Ideal S100000x512 .f32 :=
  addf
    (mulf
      (mulf (subf u (broadcastInDim S100000x512 ![0, 1] bcast_S1x512_S100000x512_0_1 (broadcastInDim S1x512 ![1] bcast_S512_S1x512_1 μ)))
        (broadcastInDim S100000x512 ![0, 1] bcast_S1x512_S100000x512_0_1 (broadcastInDim S1x512 ![1] bcast_S512_S1x512_1 (Host.rsqrt (addf v (broadcastInDim S512 ![] bcast_S_S512 (constant (F := Ideal) S_ .f32 0x3727C5AC#32)))))))
      (broadcastInDim S100000x512 ![0, 1] bcast_S1x512_S100000x512_0_1 (broadcastInDim S1x512 ![1] bcast_S512_S1x512_1 γ)))
    (broadcastInDim S100000x512 ![0, 1] bcast_S1x512_S100000x512_0_1 (broadcastInDim S1x512 ![1] bcast_S512_S1x512_1 β))

/-- The normalised, scaled and shifted columns of `u`. -/
def refY (u : FVec Ideal S100000x512 .f32) (γ β : FVec Ideal S512 .f32) : FVec Ideal S100000x512 .f32 :=
  refNorm u (refMean u) (refVar u) γ β

/-- The second linear layer on the rectified rows: `max(y, 0)·w2 + b2`. -/
def refOut (y : FVec Ideal S100000x512 .f32) (w2 : FVec Ideal S512x256 .f32) (b2 : FVec Ideal S256 .f32) :
    FVec Ideal S100000x256 .f32 :=
  addf
    (Host.dotGeneral dot_S100000x512_S512x256_S100000x256_1_0_0_1_n_n none
      (maximumf y (broadcastInDim S100000x512 ![] bcast_S_S100000x512 (constant (F := Ideal) S_ .f32 0x00000000#32))) w2)
    (broadcastInDim S100000x256 ![0, 1] bcast_S1x256_S100000x256_0_1 (broadcastInDim S1x256 ![1] bcast_S256_S1x256_1 b2))

/-- The whole layer as a function of its ten arguments. -/
def refVal (x : FVec Ideal S100000x128 .f32) (src dst : IVec S1600000 32) (ew : FVec Ideal S1600000 .f32)
    (w1 : FVec Ideal S128x512 .f32) (b1 γ β : FVec Ideal S512 .f32) (w2 : FVec Ideal S512x256 .f32)
    (b2 : FVec Ideal S256 .f32) : FVec Ideal S100000x256 .f32 :=
  refOut (refY (refU x (refAgg x src dst ew) w1 b1) γ β) w2 b2

/-! ## The operations -/

variable {F : FTy → Type} [FloatOps F]

/-- Window 1 of @main's operations, in order. -/
abbrev ops1 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v7 (broadcastInDim S1600000x1 ![0] bcast_S1600000_S1600000x1_0 : (⟨S1600000, .f32⟩ : BufTy).Contents (Elt F) → (⟨S1600000x1, .f32⟩ : BufTy).Contents (Elt F)),
    StableHlo.unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg2 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The buffers window 1 writes. -/
abbrev ops1_W : List (Ref sig .tc) := [main_c, main_v0, main_v1, main_c_0, main_v2, main_v3, main_v4, main_v5, main_v6, main_v7, main_v8, main_v9, main_cst, main_v10, main_v11, main_v12]

theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer window 1 does not write keeps its contents through it. -/
theorem keep1 (V : Valuation τ sig (Elt F)) (r : Ref sig .tc) (h : r ∉ ops1_W) :
    after ops1 V (Proc.devRef .tc r) = V (Proc.devRef .tc r) :=
  after_of_writes_sub ops1 _ ops1_writes h

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

/-- Window 2 of @main's operations, in order. -/
abbrev ops2 : List (HloOp τ sig (Elt F)) :=
  [ StableHlo.nullary main_cst_1 (constant S_ .f32 0x3F800000#32),
    StableHlo.unary main_cst_1 main_v13 (broadcastInDim S100000x128 ![] bcast_S_S100000x128 : (⟨S_, .f32⟩ : BufTy).Contents (Elt F) → (⟨S100000x128, .f32⟩ : BufTy).Contents (Elt F)),
    StableHlo.binary main_v13 main_arg0 main_v14 (mulf : (⟨S100000x128, .f32⟩ : BufTy).Contents (Elt F) → (⟨S100000x128, .f32⟩ : BufTy).Contents (Elt F) → (⟨S100000x128, .f32⟩ : BufTy).Contents (Elt F)),
    StableHlo.binary main_v14 main_v12 main_v15 (addf : (⟨S100000x128, .f32⟩ : BufTy).Contents (Elt F) → (⟨S100000x128, .f32⟩ : BufTy).Contents (Elt F) → (⟨S100000x128, .f32⟩ : BufTy).Contents (Elt F)),
    StableHlo.binary main_v15 main_arg4 main_v16 ((fun l r => Host.dotGeneral dot_S100000x128_S128x512_S100000x512_1_0_0_1_n_n none l r) : (⟨S100000x128, .f32⟩ : BufTy).Contents (Elt F) → (⟨S128x512, .f32⟩ : BufTy).Contents (Elt F) → (⟨S100000x512, .f32⟩ : BufTy).Contents (Elt F)),
    StableHlo.unary main_arg5 main_v17 (broadcastInDim S1x512 ![1] bcast_S512_S1x512_1 : (⟨S512, .f32⟩ : BufTy).Contents (Elt F) → (⟨S1x512, .f32⟩ : BufTy).Contents (Elt F)),
    StableHlo.unary main_v17 main_v18 (broadcastInDim S100000x512 ![0, 1] bcast_S1x512_S100000x512_0_1 : (⟨S1x512, .f32⟩ : BufTy).Contents (Elt F) → (⟨S100000x512, .f32⟩ : BufTy).Contents (Elt F)),
    StableHlo.binary main_v16 main_v18 main_v19 (addf : (⟨S100000x512, .f32⟩ : BufTy).Contents (Elt F) → (⟨S100000x512, .f32⟩ : BufTy).Contents (Elt F) → (⟨S100000x512, .f32⟩ : BufTy).Contents (Elt F)) ]

/-- The buffers window 2 writes. -/
abbrev ops2_W : List (Ref sig .tc) := [main_cst_1, main_v13, main_v14, main_v15, main_v16, main_v17, main_v18, main_v19]

theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer window 2 does not write keeps its contents through it. -/
theorem keep2 (V : Valuation τ sig (Elt F)) (r : Ref sig .tc) (h : r ∉ ops2_W) :
    after ops2 V (Proc.devRef .tc r) = V (Proc.devRef .tc r) :=
  after_of_writes_sub ops2 _ ops2_writes h

theorem ops2_sub : (ops2 : List (HloOp τ sig (Elt F))).Forall fun op => op.bufs ⊆ tcRefs τ sig :=
  ⟨nullary_bufs_sub .., unary_bufs_sub .., binary_bufs_sub .., binary_bufs_sub .., binary_bufs_sub .., unary_bufs_sub .., unary_bufs_sub .., binary_bufs_sub ..⟩

/-- Window 3 of @main's operations, in order. -/
abbrev ops3 : List (HloOp τ sig (Elt F)) :=
  [ StableHlo.nullary main_cst_2 (constant S_ .f32 0x00000000#32),
    StableHlo.binary main_v19 main_cst_2 main_v20 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.nullary main_cst_3 (constant S_ .f32 0x47C35000#32),
    StableHlo.unary main_cst_3 main_v21 (broadcastInDim S512 ![] bcast_S_S512 : (⟨S_, .f32⟩ : BufTy).Contents (Elt F) → (⟨S512, .f32⟩ : BufTy).Contents (Elt F)),
    StableHlo.binary main_v20 main_v21 main_v22 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32) ]

/-- The buffers window 3 writes. -/
abbrev ops3_W : List (Ref sig .tc) := [main_cst_2, main_v20, main_cst_3, main_v21, main_v22, main_c_4]

theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer window 3 does not write keeps its contents through it. -/
theorem keep3 (V : Valuation τ sig (Elt F)) (r : Ref sig .tc) (h : r ∉ ops3_W) :
    after ops3 V (Proc.devRef .tc r) = V (Proc.devRef .tc r) :=
  after_of_writes_sub ops3 _ ops3_writes h

theorem ops3_sub : (ops3 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩

/-- Window 4 of @main's operations, in order (the variance function's nineteen, then its selection function's three, over the call's buffers). -/
abbrev ops4 : List (HloOp τ sig (Elt F)) :=
  [ StableHlo.TRef.nullary main_call0.cst (constant S_ .f32 0x00000000#32),
    StableHlo.TRef.binary (TRef.of main_v19 : TRef sig ⟨S100000x512, .f32⟩) main_call0.cst main_call0.v0 (fun x v => Host.reduceAdd x v reducesTo_S100000x512_S512_d0 h_S_),
    StableHlo.TRef.unary main_call0.v0 main_call0.v1 (broadcastInDim S1x512 ![1] bcast_S512_S1x512_1),
    StableHlo.TRef.nullary main_call0.cst_0 (constant S_ .f32 0x47C35000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S100000x512 ![0, 1] bcast_S1x512_S100000x512_0_1),
    StableHlo.TRef.binary (TRef.of main_v19 : TRef sig ⟨S100000x512, .f32⟩) main_call0.v4 main_call0.v5 subf,
    StableHlo.TRef.binary main_call0.v5 main_call0.v5 main_call0.v6 mulf,
    StableHlo.TRef.unary (TRef.of main_c_4 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b) ]

/-- The buffers window 4 writes. -/
abbrev ops4_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v23]

theorem ops4_writes : (ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer window 4 does not write keeps its contents through it. -/
theorem keep4 (V : Valuation τ sig (Elt F)) (r : Ref sig .tc) (h : r ∉ ops4_W) :
    after ops4 V (Proc.devRef .tc r) = V (Proc.devRef .tc r) :=
  after_of_writes_sub ops4 _ ops4_writes h

theorem ops4_sub : (ops4 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Window 5 of @main's operations, in order. -/
abbrev ops5 : List (HloOp τ sig (Elt F)) :=
  [ StableHlo.unary main_v22 main_v24 (broadcastInDim S1x512 ![1] bcast_S512_S1x512_1 : (⟨S512, .f32⟩ : BufTy).Contents (Elt F) → (⟨S1x512, .f32⟩ : BufTy).Contents (Elt F)),
    StableHlo.unary main_v24 main_v25 (broadcastInDim S100000x512 ![0, 1] bcast_S1x512_S100000x512_0_1 : (⟨S1x512, .f32⟩ : BufTy).Contents (Elt F) → (⟨S100000x512, .f32⟩ : BufTy).Contents (Elt F)),
    StableHlo.binary main_v19 main_v25 main_v26 (subf : (⟨S100000x512, .f32⟩ : BufTy).Contents (Elt F) → (⟨S100000x512, .f32⟩ : BufTy).Contents (Elt F) → (⟨S100000x512, .f32⟩ : BufTy).Contents (Elt F)),
    StableHlo.nullary main_cst_5 (constant S_ .f32 0x3727C5AC#32),
    StableHlo.unary main_cst_5 main_v27 (broadcastInDim S512 ![] bcast_S_S512 : (⟨S_, .f32⟩ : BufTy).Contents (Elt F) → (⟨S512, .f32⟩ : BufTy).Contents (Elt F)),
    StableHlo.binary main_v23 main_v27 main_v28 (addf : (⟨S512, .f32⟩ : BufTy).Contents (Elt F) → (⟨S512, .f32⟩ : BufTy).Contents (Elt F) → (⟨S512, .f32⟩ : BufTy).Contents (Elt F)),
    StableHlo.unary main_v28 main_v29 (Host.rsqrt : (⟨S512, .f32⟩ : BufTy).Contents (Elt F) → (⟨S512, .f32⟩ : BufTy).Contents (Elt F)),
    StableHlo.unary main_v29 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S100000x512 ![0, 1] bcast_S1x512_S100000x512_0_1 : (⟨S1x512, .f32⟩ : BufTy).Contents (Elt F) → (⟨S100000x512, .f32⟩ : BufTy).Contents (Elt F)),
    StableHlo.binary main_v26 main_v31 main_v32 (mulf : (⟨S100000x512, .f32⟩ : BufTy).Contents (Elt F) → (⟨S100000x512, .f32⟩ : BufTy).Contents (Elt F) → (⟨S100000x512, .f32⟩ : BufTy).Contents (Elt F)),
    StableHlo.unary main_arg6 main_v33 (broadcastInDim S1x512 ![1] bcast_S512_S1x512_1 : (⟨S512, .f32⟩ : BufTy).Contents (Elt F) → (⟨S1x512, .f32⟩ : BufTy).Contents (Elt F)),
    StableHlo.unary main_v33 main_v34 (broadcastInDim S100000x512 ![0, 1] bcast_S1x512_S100000x512_0_1 : (⟨S1x512, .f32⟩ : BufTy).Contents (Elt F) → (⟨S100000x512, .f32⟩ : BufTy).Contents (Elt F)),
    StableHlo.binary main_v32 main_v34 main_v35 (mulf : (⟨S100000x512, .f32⟩ : BufTy).Contents (Elt F) → (⟨S100000x512, .f32⟩ : BufTy).Contents (Elt F) → (⟨S100000x512, .f32⟩ : BufTy).Contents (Elt F)),
    StableHlo.unary main_arg7 main_v36 (broadcastInDim S1x512 ![1] bcast_S512_S1x512_1 : (⟨S512, .f32⟩ : BufTy).Contents (Elt F) → (⟨S1x512, .f32⟩ : BufTy).Contents (Elt F)),
    StableHlo.unary main_v36 main_v37 (broadcastInDim S100000x512 ![0, 1] bcast_S1x512_S100000x512_0_1 : (⟨S1x512, .f32⟩ : BufTy).Contents (Elt F) → (⟨S100000x512, .f32⟩ : BufTy).Contents (Elt F)),
    StableHlo.binary main_v35 main_v37 main_v38 (addf : (⟨S100000x512, .f32⟩ : BufTy).Contents (Elt F) → (⟨S100000x512, .f32⟩ : BufTy).Contents (Elt F) → (⟨S100000x512, .f32⟩ : BufTy).Contents (Elt F)) ]

/-- The buffers window 5 writes. -/
abbrev ops5_W : List (Ref sig .tc) := [main_v24, main_v25, main_v26, main_cst_5, main_v27, main_v28, main_v29, main_v30, main_v31, main_v32, main_v33, main_v34, main_v35, main_v36, main_v37, main_v38]

theorem ops5_writes : (ops5 : List (HloOp τ sig (Elt F))).Forall fun op =>
    op.writes ⊆ (ops5_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer window 5 does not write keeps its contents through it. -/
theorem keep5 (V : Valuation τ sig (Elt F)) (r : Ref sig .tc) (h : r ∉ ops5_W) :
    after ops5 V (Proc.devRef .tc r) = V (Proc.devRef .tc r) :=
  after_of_writes_sub ops5 _ ops5_writes h

theorem ops5_sub : (ops5 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- Window 6 of @main's operations, in order (the rectifier function's three over the call's buffers, then the second linear layer). -/
abbrev ops6 : List (HloOp τ sig (Elt F)) :=
  [ StableHlo.TRef.nullary main_call1.cst (constant S_ .f32 0x00000000#32),
    StableHlo.TRef.unary main_call1.cst main_call1.v0 (broadcastInDim S100000x512 ![] bcast_S_S100000x512),
    StableHlo.TRef.binary (TRef.of main_v38 : TRef sig ⟨S100000x512, .f32⟩) main_call1.v0 main_call1.v1 maximumf,
    StableHlo.binary main_v39 main_arg8 main_v40 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    StableHlo.unary main_arg9 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S100000x256 ![0, 1] bcast_S1x256_S100000x256_0_1 : (⟨S1x256, .f32⟩ : BufTy).Contents (Elt F) → (⟨S100000x256, .f32⟩ : BufTy).Contents (Elt F)),
    StableHlo.binary main_v40 main_v42 main_v43 (addf : (⟨S100000x256, .f32⟩ : BufTy).Contents (Elt F) → (⟨S100000x256, .f32⟩ : BufTy).Contents (Elt F) → (⟨S100000x256, .f32⟩ : BufTy).Contents (Elt F)) ]

/-- The buffers window 6 writes. -/
abbrev ops6_W : List (Ref sig .tc) := [main_call1_cst, main_call1_v0, main_v39, main_v40, main_v41, main_v42, main_v43]

theorem ops6_writes : (ops6 : List (HloOp τ sig (Elt F))).Forall fun op =>
    op.writes ⊆ (ops6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer window 6 does not write keeps its contents through it. -/
theorem keep6 (V : Valuation τ sig (Elt F)) (r : Ref sig .tc) (h : r ∉ ops6_W) :
    after ops6 V (Proc.devRef .tc r) = V (Proc.devRef .tc r) :=
  after_of_writes_sub ops6 _ ops6_writes h

theorem ops6_sub : (ops6 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..⟩

/-- @main's seventy-five operations, in order, the three functions' bodies in place of their calls. -/
abbrev ops : List (HloOp τ sig (Elt F)) := ops1 ++ (ops2 ++ (ops3 ++ (ops4 ++ (ops5 ++ ops6))))

end Cert.ReferenceIdeal.HandRun

end
-- ==== Proof.RefRunMain.lean ====
/-
  The reference's @main is the straight line of its seventy-five operations: the three outlined functions' bodies
  unfolded at their calls, over the calls' buffer records. No buffer and no semaphore of the program is scoped, and
  every operation touches TensorCore buffers only.
-/
import proofs.«107100_j65283502899905_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is the line: the functions' definitions unfolded at their calls and the records at their fields, both sides
    are one chain of steps once sequencing is reassociated. -/
theorem main_eq (c : Dev nD) : main (F := F) c = seq ops := by
  simp only [main, fn_var.body, fn_where.body, fn_relu.body, ops, ops1, ops2, ops3, ops4, ops5, ops6,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops1_sub op h, List.forall_iff_forall_mem.mp ops2_sub op h,
      List.forall_iff_forall_mem.mp ops3_sub op h, List.forall_iff_forall_mem.mp ops4_sub op h,
      List.forall_iff_forall_mem.mp ops5_sub op h, List.forall_iff_forall_mem.mp ops6_sub op h]

end Cert.ReferenceIdeal.HandRun

end
-- ==== Proof.RefRunW.lean ====
/-
  The six windows of the reference's operations, each read at the buffer its stage ends in: from any contents V of
  the buffers, the contents of that buffer after the window's operations are the stage's function of the contents,
  in V, of the buffers the window reads.
-/
import proofs.«107100_j65283502899905_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

set_option maxRecDepth 8192 in
set_option maxHeartbeats 2000000 in
theorem w1_v12 (V : Valuation τ sig (Elt Ideal)) :
    after (ops1 (F := Ideal)) V (Proc.devRef .tc main_v12) = refAgg (V (Proc.devRef .tc main_arg0)) (V (Proc.devRef .tc main_arg1)) (V (Proc.devRef .tc main_arg2)) (V (Proc.devRef .tc main_arg3)) := by
  simp only [ops1]
  after_results_simp
  rfl

set_option maxRecDepth 8192 in
set_option maxHeartbeats 2000000 in
theorem w2_v19 (V : Valuation τ sig (Elt Ideal)) :
    after (ops2 (F := Ideal)) V (Proc.devRef .tc main_v19) = refU (V (Proc.devRef .tc main_arg0)) (V (Proc.devRef .tc main_v12)) (V (Proc.devRef .tc main_arg4)) (V (Proc.devRef .tc main_arg5)) := by
  simp only [ops2]
  after_results_simp
  rfl

set_option maxRecDepth 8192 in
set_option maxHeartbeats 2000000 in
theorem w3_v22 (V : Valuation τ sig (Elt Ideal)) :
    after (ops3 (F := Ideal)) V (Proc.devRef .tc main_v22) = refMean (V (Proc.devRef .tc main_v19)) := by
  simp only [ops3]
  after_results_simp
  rfl

set_option maxRecDepth 8192 in
set_option maxHeartbeats 2000000 in
theorem w3_c_4 (V : Valuation τ sig (Elt Ideal)) :
    after (ops3 (F := Ideal)) V (Proc.devRef .tc main_c_4) = constantI S_ 32 0#32 := by
  simp only [ops3]
  after_results_simp

set_option maxRecDepth 8192 in
set_option maxHeartbeats 2000000 in
theorem w4_v23 (V : Valuation τ sig (Elt Ideal)) :
    after (ops4 (F := Ideal)) V (Proc.devRef .tc main_v23) = refVarC (V (Proc.devRef .tc main_v19)) (V (Proc.devRef .tc main_c_4)) := by
  simp only [ops4]
  after_results_simp
  rfl

set_option maxRecDepth 8192 in
set_option maxHeartbeats 2000000 in
theorem w5_v38 (V : Valuation τ sig (Elt Ideal)) :
    after (ops5 (F := Ideal)) V (Proc.devRef .tc main_v38) = refNorm (V (Proc.devRef .tc main_v19)) (V (Proc.devRef .tc main_v22)) (V (Proc.devRef .tc main_v23)) (V (Proc.devRef .tc main_arg6)) (V (Proc.devRef .tc main_arg7)) := by
  simp only [ops5]
  after_results_simp
  rfl

set_option maxRecDepth 8192 in
set_option maxHeartbeats 2000000 in
theorem w6_v43 (V : Valuation τ sig (Elt Ideal)) :
    after (ops6 (F := Ideal)) V (Proc.devRef .tc main_v43) = refOut (V (Proc.devRef .tc main_v38)) (V (Proc.devRef .tc main_arg8)) (V (Proc.devRef .tc main_arg9)) := by
  simp only [ops6]
  after_results_simp
  rfl

end Cert.ReferenceIdeal.HandRun

end
-- ==== Proof.RefRun.lean ====
/-
  The reference's run: every weakly fair execution of its @main terminates with the result buffer at the layer's
  function `refVal` of the ten arguments' launch contents, and with the arguments unchanged.

  The contents after the whole line are the contents after its six windows in turn; each window's stage reads what
  the earlier windows left, and a buffer a window does not write passes through it.
-/
import proofs.«107100_j65283502899905_2_alg».proof.Proof.RefRunMain
import proofs.«107100_j65283502899905_2_alg».proof.Proof.RefRunW
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The contents after the whole line, window after window. -/
theorem after_ops (V : Valuation τ sig (Elt F)) :
    after (ops (F := F)) V = after ops6 (after ops5 (after ops4 (after ops3 (after ops2 (after ops1 V))))) := by
  simp only [ops, StableHlo.after_append]

/-- A buffer no window writes keeps its contents through the whole line. -/
theorem after_ops_keep (V : Valuation τ sig (Elt F)) (r : Ref sig .tc) (h1 : r ∉ ops1_W) (h2 : r ∉ ops2_W)
    (h3 : r ∉ ops3_W) (h4 : r ∉ ops4_W) (h5 : r ∉ ops5_W) (h6 : r ∉ ops6_W) :
    after (ops (F := F)) V (Proc.devRef .tc r) = V (Proc.devRef .tc r) := by
  rw [after_ops, keep6 _ r h6, keep5 _ r h5, keep4 _ r h4, keep3 _ r h3, keep2 _ r h2, keep1 _ r h1]

/-- The result buffer after the whole line: the layer's function of the arguments' contents. -/
theorem after_ops_v43 (V : Valuation τ sig (Elt Ideal)) :
    after (ops (F := Ideal)) V (Proc.devRef .tc main_v43)
      = refVal (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops, w6_v43]
  rw [w5_v38, keep5 _ main_arg8 (by decide), keep5 _ main_arg9 (by decide)]
  rw [w4_v23, keep4 _ main_v19 (by decide), keep4 _ main_v22 (by decide), keep4 _ main_arg6 (by decide), keep4 _ main_arg7 (by decide),
    keep4 _ main_arg8 (by decide), keep4 _ main_arg9 (by decide)]
  rw [w3_v22, w3_c_4, keep3 _ main_v19 (by decide), keep3 _ main_arg6 (by decide), keep3 _ main_arg7 (by decide),
    keep3 _ main_arg8 (by decide), keep3 _ main_arg9 (by decide)]
  rw [w2_v19, keep2 _ main_arg6 (by decide), keep2 _ main_arg7 (by decide), keep2 _ main_arg8 (by decide), keep2 _ main_arg9 (by decide)]
  rw [w1_v12, keep1 _ main_arg0 (by decide), keep1 _ main_arg4 (by decide), keep1 _ main_arg5 (by decide), keep1 _ main_arg6 (by decide),
    keep1 _ main_arg7 (by decide), keep1 _ main_arg8 (by decide), keep1 _ main_arg9 (by decide)]
  rfl

/-- On every device, from any memory with zero counters: every weakly fair execution of @main terminates with the
    result at the layer's function of the arguments' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v43) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v43).trans (after_ops_v43 (launchContents m c)),
      (h c main_arg0).trans (after_ops_keep (launchContents m c) main_arg0 (by decide) (by decide) (by decide) (by decide) (by decide) (by decide)),
      (h c main_arg1).trans (after_ops_keep (launchContents m c) main_arg1 (by decide) (by decide) (by decide) (by decide) (by decide) (by decide)),
      (h c main_arg2).trans (after_ops_keep (launchContents m c) main_arg2 (by decide) (by decide) (by decide) (by decide) (by decide) (by decide)),
      (h c main_arg3).trans (after_ops_keep (launchContents m c) main_arg3 (by decide) (by decide) (by decide) (by decide) (by decide) (by decide)),
      (h c main_arg4).trans (after_ops_keep (launchContents m c) main_arg4 (by decide) (by decide) (by decide) (by decide) (by decide) (by decide)),
      (h c main_arg5).trans (after_ops_keep (launchContents m c) main_arg5 (by decide) (by decide) (by decide) (by decide) (by decide) (by decide)),
      (h c main_arg6).trans (after_ops_keep (launchContents m c) main_arg6 (by decide) (by decide) (by decide) (by decide) (by decide) (by decide)),
      (h c main_arg7).trans (after_ops_keep (launchContents m c) main_arg7 (by decide) (by decide) (by decide) (by decide) (by decide) (by decide)),
      (h c main_arg8).trans (after_ops_keep (launchContents m c) main_arg8 (by decide) (by decide) (by decide) (by decide) (by decide) (by decide)),
      (h c main_arg9).trans (after_ops_keep (launchContents m c) main_arg9 (by decide) (by decide) (by decide) (by decide) (by decide) (by decide))⟩)
    (run_seq scopedRefs_eq scopedSems_eq defs main (fun _ => ops) main_eq (fun _ => ops_sub) m ρ)

end Cert.ReferenceIdeal.HandRun

end
-- ==== Proof.RefRead.lean ====
/-
  The reference's layer read entry by entry. Each stage of the reference program — the first linear layer, the column
  means, the column variances, the normalisation, the second linear layer on the rectified rows — is read at one index
  as the corresponding formula over the extended reals: a host product with the plain dimension numbers is the sum
  over the contraction index; a sum over the rows from an initial value is that value plus the sum over the 100000 row
  indices; a row vector repeated down the rows reads its own entry; a scalar broadcast reads the scalar. In the
  variance the divisor is the row count less an integer zero converted to a float, which is the row count; it is
  positive, so the selection keeps the quotient and never the not-a-number pattern. The aggregated messages stay
  opaque throughout.
-/
import proofs.«107100_j65283502899905_2_alg».proof.Proof.RefRunOps
import proofs.«107100_j65283502899905_2_alg».proof.Proof.Spec
import proofs.«107100_j65283502899905_2_alg».proof.Proof.LibRows
import Idealize.ShloMosaic.PureOps.Ideal
import Idealize.ShloMosaic.PureOps.Ideal.Laws
import Idealize.ShloMosaic.Lib.Pipeline.Value
import Idealize.ShloMosaic.Lib.ValueIdx

noncomputable section

namespace Cert.Gin.RefSide

open Idealize.ShloMosaic Idealize.ShloMosaic.ValueIdx Cert.ReferenceIdeal Cert.ReferenceIdeal.Gen Cert.ReferenceIdeal.HandRun
open scoped BigOperators

/-! ## Broadcasts and column sums at an index -/

/-- A one-row array repeated down `a` rows reads, at `(p, c)`, its row's entry `c`. -/
theorem rowRepeat_apply {α : Type} {a b : Nat} (X : (⟨2, ![1, b]⟩ : Shape).Idx → α)
    (h2 : (⟨2, ![1, b]⟩ : Shape).BroadcastsInDim ⟨2, ![a, b]⟩ ![0, 1]) (p : Fin a) (c : Fin b) :
    broadcastInDim ⟨2, ![a, b]⟩ ![0, 1] h2 X (ix2 p c) = X (ix2 (0 : Fin 1) c) :=
  broadcastInDim_apply ![0, 1] h2 X (ix2 p c) (ix2 (0 : Fin 1) c) (fun ax => by
    match ax with
    | ⟨0, _⟩ => rfl
    | ⟨1, _⟩ =>
      show c.val = if b = 1 then 0 else c.val
      split
      · have := c.isLt; omega
      · rfl)

/-- A vector of `b` entries made a one-row array reads, at `(0, c)`, the vector's entry `c`. -/
theorem asRow_apply {α : Type} {b : Nat} (v : (⟨1, ![b]⟩ : Shape).Idx → α)
    (h1 : (⟨1, ![b]⟩ : Shape).BroadcastsInDim ⟨2, ![1, b]⟩ ![1]) (c : Fin b) :
    broadcastInDim ⟨2, ![1, b]⟩ ![1] h1 v (ix2 (0 : Fin 1) c) = v (ix1 c) :=
  broadcastInDim_apply ![1] h1 v (ix2 (0 : Fin 1) c) (ix1 c) (fun ax => by
    match ax with
    | ⟨0, _⟩ =>
      show c.val = if b = 1 then 0 else c.val
      split
      · have := c.isLt; omega
      · rfl)

/-- The column index `j` with the row `k` put back is `(k, j)`. -/
theorem lift_col (h : S100000x512.Reduces [0] S512) (j : Fin 512) (k : Fin 100000) :
    h.lift (ix1 j) k = ix2 k j := by
  funext c; apply Fin.ext
  fin_cases c <;> rfl

/-- A sum over the rows from an initial value, at column `j`: the initial value plus the sum over the 100000 rows. -/
theorem colSum_apply (u : FVec Ideal S100000x512 .f32) (init : FVec Ideal S_ .f32) (j : Fin 512) :
    Host.reduceAdd u init reducesTo_S100000x512_S512_d0 h_S_ (ix1 j) = init ix0 + ∑ r : Fin 100000, u (ix2 r j) := by
  have hR : S100000x512.Reduces [0] S512 := by decide
  unfold Host.reduceAdd
  refine (Ideal.hostReduceAdd_single reducesTo_S100000x512_S512_d0 hR u _ (ix1 j)).trans ?_
  refine congrArg₂ (· + ·) (congrArg init (eq_ix0 _)) ?_
  exact Finset.sum_congr rfl fun k _ => congrArg u (lift_col hR j k)

/-- The host's quotient at an index is the extended reals' division of the entries. -/
theorem hostDivf_apply {s : Shape} {φ : FTy} (a b : FVec Ideal s φ) (i : s.Idx) :
    Host.divf a b i = Ideal.div (a i) (b i) := rfl

/-- The host's reciprocal square root at an index is the extended reals' one of the entry. -/
theorem hostRsqrt_apply {s : Shape} {φ : FTy} (a : FVec Ideal s φ) (i : s.Idx) :
    Host.rsqrt a i = Ideal.rsqrt (a i) := rfl

/-! ## The first linear layer -/

/-- The first linear layer at row `r`, column `j`: the hidden row `1·x + A` against column `j` of `w1`, plus the bias. -/
theorem refU_apply (x A : FVec Ideal S100000x128 .f32) (w1 : FVec Ideal S128x512 .f32) (b1 : FVec Ideal S512 .f32)
    (r : Fin 100000) (j : Fin 512) :
    refU x A w1 b1 (ix2 r j) = Cert.Gin.lin1 x A w1 b1 r j := by
  unfold refU Cert.Gin.lin1
  refine (addf_apply _ _ _).trans (congrArg₂ (· + ·) ?_ (Cert.LibRows.rowBiasInDim_apply b1 _ _ r j))
  refine (Cert.LibRows.dotGeneral_plain_apply _ rfl none _ w1 r j).trans ?_
  refine Finset.sum_congr rfl fun k _ => congrArg (· * w1 (ix2 k j)) ?_
  refine (addf_apply _ _ _).trans (congrArg (· + A (ix2 r k)) ?_)
  refine (mulf_apply _ _ _).trans (congrArg (· * x (ix2 r k)) ?_)
  exact (Cert.LibRows.scalarInDim_apply _ _ _).trans rfl

/-! ## The column means and variances -/

/-- The mean of column `j`. -/
theorem refMean_apply (u : FVec Ideal S100000x512 .f32) (j : Fin 512) :
    refMean u (ix1 j) = Cert.Gin.meanDev (fun r j => u (ix2 r j)) j := by
  unfold refMean Cert.Gin.meanDev
  refine (hostDivf_apply _ _ _).trans (congrArg₂ Ideal.div ?_ ?_)
  · exact colSum_apply u _ j
  · exact (Cert.LibRows.scalarInDim_apply _ _ _).trans rfl

/-- The deviation of entry `(r, j)` from its column's mean, as the variance's own computation takes it. -/
theorem refDev_apply (u : FVec Ideal S100000x512 .f32) (r : Fin 100000) (j : Fin 512) :
    refDev u (ix2 r j) = u (ix2 r j) - Cert.Gin.meanDev (fun r j => u (ix2 r j)) j := by
  unfold refDev
  refine (subf_apply _ _ _).trans (congrArg (u (ix2 r j) - ·) ?_)
  refine (rowRepeat_apply _ _ r j).trans ?_
  unfold Cert.Gin.meanDev
  refine (hostDivf_apply _ _ _).trans (congrArg₂ Ideal.div ?_ ?_)
  · exact (asRow_apply _ _ j).trans (colSum_apply u _ j)
  · exact (Cert.LibRows.scalarInDim_apply _ _ _).trans rfl

/-- The integer zero converted to a float is zero. -/
theorem sitofp_zero : FloatOps.sitofp (F := Ideal) .f32 (0#32 : BitVec 32) = 0 := by
  show (((0#32 : BitVec 32).toInt : ℝ) : EReal) = 0
  simp

/-- The variance's divisor with correction zero is the row count. -/
theorem refCnt_zero : refCnt (constantI S_ 32 0#32) ix0 = cnt32 := by
  unfold refCnt
  show cnt32 - FloatOps.sitofp (F := Ideal) .f32 (0#32 : BitVec 32) = cnt32
  rw [sitofp_zero, sub_zero]

/-- The row count is greater than zero: the comparison's bit is set. -/
theorem cnt_gt_zero : FloatOps.cmpf (F := Ideal) (φ := .f32) .ogt cnt32 zero32 = 1#1 := by
  have h : zero32 < cnt32 := by
    rw [zero32_eq, cnt32_eq]
    exact_mod_cast (by norm_num : (0 : ℝ) < 100000)
  show BitVec.ofBool (decide (zero32 < cnt32)) = 1#1
  rw [decide_eq_true h]
  rfl

/-- The variance of column `j`: the divisor is the row count, which is positive, so the selection keeps the quotient. -/
theorem refVar_apply (u : FVec Ideal S100000x512 .f32) (j : Fin 512) :
    refVar u (ix1 j) = Cert.Gin.varDev (fun r j => u (ix2 r j)) j := by
  unfold refVar refVarC
  refine (select_apply _ _ _ _).trans ?_
  have hc : broadcastInDim S512 ![] bcast_S_S512
      (cmpf .ogt (refCnt (constantI S_ 32 0#32)) (constant (F := Ideal) S_ .f32 0x00000000#32)) (ix1 j) = 1#1 := by
    refine (Cert.LibRows.scalarInDim_apply _ _ _).trans ?_
    refine (cmpf_apply _ _ _ _).trans ?_
    rw [refCnt_zero]
    exact cnt_gt_zero
  rw [hc, select_one]
  unfold Cert.Gin.varDev
  refine (hostDivf_apply _ _ _).trans (congrArg₂ Ideal.div ?_ ?_)
  · refine (colSum_apply _ _ j).trans ?_
    refine congrArg (zero32 + ·) (Finset.sum_congr rfl fun r _ => ?_)
    refine (mulf_apply _ _ _).trans ?_
    rw [refDev_apply]
  · exact (Cert.LibRows.scalarInDim_apply _ _ _).trans refCnt_zero

/-! ## The normalisation and the second linear layer -/

/-- The normalised, scaled and shifted entry `(r, j)`. -/
theorem refY_apply (u : FVec Ideal S100000x512 .f32) (γ β : FVec Ideal S512 .f32) (r : Fin 100000) (j : Fin 512) :
    refY u γ β (ix2 r j) = Cert.Gin.bnDev (fun r j => u (ix2 r j)) γ β r j := by
  unfold refY refNorm Cert.Gin.bnDev
  refine (addf_apply _ _ _).trans (congrArg₂ (· + ·) ?_ (Cert.LibRows.rowBiasInDim_apply β _ _ r j))
  refine (mulf_apply _ _ _).trans (congrArg₂ (· * ·) ?_ (Cert.LibRows.rowBiasInDim_apply γ _ _ r j))
  refine (mulf_apply _ _ _).trans (congrArg₂ (· * ·) ?_ ?_)
  · refine (subf_apply _ _ _).trans (congrArg (u (ix2 r j) - ·) ?_)
    exact (Cert.LibRows.rowBiasInDim_apply _ _ _ r j).trans (refMean_apply u j)
  · refine (Cert.LibRows.rowBiasInDim_apply _ _ _ r j).trans ?_
    refine (hostRsqrt_apply _ _).trans (congrArg Ideal.rsqrt ?_)
    refine (addf_apply _ _ _).trans (congrArg₂ (· + ·) (refVar_apply u j) ?_)
    exact (Cert.LibRows.scalarInDim_apply _ _ _).trans rfl

/-- The second linear layer at row `r`, column `o`: the rectified row against column `o` of `w2`, plus the bias. -/
theorem refOut_apply (y : FVec Ideal S100000x512 .f32) (w2 : FVec Ideal S512x256 .f32) (b2 : FVec Ideal S256 .f32)
    (r : Fin 100000) (o : Fin 256) :
    refOut y w2 b2 (ix2 r o) = Cert.Gin.lin2 (fun r j => y (ix2 r j)) w2 b2 r o := by
  unfold refOut Cert.Gin.lin2
  refine (addf_apply _ _ _).trans (congrArg₂ (· + ·) ?_ (Cert.LibRows.rowBiasInDim_apply b2 _ _ r o))
  refine (Cert.LibRows.dotGeneral_plain_apply _ rfl none _ w2 r o).trans ?_
  refine Finset.sum_congr rfl fun k _ => congrArg (· * w2 (ix2 k o)) ?_
  unfold Cert.Gin.relu
  refine (maximumf_apply _ _ _).trans (congrArg (max (y (ix2 r k)) ·) ?_)
  exact (Cert.LibRows.scalarInDim_apply _ _ _).trans rfl

/-! ## The whole layer -/

/-- The reference's result at row `r`, column `o`: the second linear layer of the rectified normalisation of the first
    linear layer of `1·x` plus the aggregated messages, which stay unopened. -/
theorem refVal_apply (x : FVec Ideal S100000x128 .f32) (src dst : IVec S1600000 32) (ew : FVec Ideal S1600000 .f32)
    (w1 : FVec Ideal S128x512 .f32) (b1 γ β : FVec Ideal S512 .f32) (w2 : FVec Ideal S512x256 .f32)
    (b2 : FVec Ideal S256 .f32) (r : Fin 100000) (o : Fin 256) :
    refVal x src dst ew w1 b1 γ β w2 b2 (ix2 r o)
      = Cert.Gin.lin2 (Cert.Gin.bnDev (Cert.Gin.lin1 x (refAgg x src dst ew) w1 b1) γ β) w2 b2 r o := by
  unfold refVal
  generalize refAgg x src dst ew = A
  refine (refOut_apply _ w2 b2 r o).trans ?_
  have hU : (fun r j => refU x A w1 b1 (ix2 r j)) = Cert.Gin.lin1 x A w1 b1 :=
    funext fun r => funext fun j => refU_apply x A w1 b1 r j
  have hY : (fun r j => refY (refU x A w1 b1) γ β (ix2 r j)) = Cert.Gin.bnDev (Cert.Gin.lin1 x A w1 b1) γ β :=
    funext fun r => funext fun j => (refY_apply _ γ β r j).trans (by rw [hU])
  rw [hY]

end Cert.Gin.RefSide

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibScatter.lean ====
/-
  An accumulating scatter of rows, read at an entry, on the extended reals.

  The scatter adds row `e` of the updates into row `idx e` of the operand (the row index read as a signed integer;
  a row index outside the operand drops the update). So entry `(n, f)` of the result is the operand's entry plus the
  sum, over the update rows `e` whose index is `n`, of the updates' entry `(e, f)`. The same for a scatter of
  scalars into a vector. Every update element lands in its own column, so the sum over the update elements that
  land on `(n, f)` collapses to a sum over the update rows.
-/
import Idealize.ShloMosaic.PureOps.Ideal
import Idealize.ShloMosaic.PureOps.Ideal.Laws
import Idealize.ShloMosaic.Lib.ValueIdx

noncomputable section

namespace Cert.LibScatter

open Idealize.ShloMosaic Idealize.ShloMosaic.ValueIdx

/-- The dimension numbers of a scatter of `E` rows of `C` columns into an `[N, C]` operand, one row index per update row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowDims_start0 (idx : IVec ⟨2, ![E, 1]⟩ w) (e : Fin E) (f : Fin C) :
    (rowDims N E C wf).start (ix2 e f) idx 0 = (idx (ix2 e (0 : Fin 1))).toInt := by
  unfold ScatterDims.start
  rw [dif_pos (show (0 : Fin 2) ∈ (rowDims N E C wf).scatterDimsToOperandDims from List.mem_singleton.mpr rfl)]
  congr 2
  funext b; refine Fin.ext ?_
  match b with
  | ⟨0, _⟩ => rfl
  | ⟨1, _⟩ => rfl

theorem rowDims_start1 (idx : IVec ⟨2, ![E, 1]⟩ w) (j : (⟨2, ![E, C]⟩ : Shape).Idx) :
    (rowDims N E C wf).start j idx 1 = 0 := by
  unfold ScatterDims.start
  rw [dif_neg (show (1 : Fin 2) ∉ ([0] : List (Fin 2)) by decide)]

theorem rowDims_window0 (j : (⟨2, ![E, C]⟩ : Shape).Idx) : (rowDims N E C wf).window j 0 = 0 := by
  unfold ScatterDims.window
  have h : (0 : Fin 2) ∉ (rowDims N E C wf).sKept := by
    show (0 : Fin 2) ∉ (List.finRange 2).filter (· ∉ ([0] : List (Fin 2)))
    decide
  rw [dif_neg h]

theorem rowDims_window1 (j : (⟨2, ![E, C]⟩ : Shape).Idx) : (rowDims N E C wf).window j 1 = (j 1).val := by
  unfold ScatterDims.window
  have h : (1 : Fin 2) ∈ (rowDims N E C wf).sKept := by
    show (1 : Fin 2) ∈ (List.finRange 2).filter (· ∉ ([0] : List (Fin 2)))
    decide
  rw [dif_pos h]
  rfl

/-- Update element `(e, f)` lands on `(n, f')` exactly when row `e`'s index is `n` and the columns agree. -/
theorem rowDims_resultIdx_iff (idx : IVec ⟨2, ![E, 1]⟩ w) (e : Fin E) (f f' : Fin C) (n : Fin N) :
    (rowDims N E C wf).resultIdx? (ix2 e f) idx = some (ix2 n f')
      ↔ (idx (ix2 e (0 : Fin 1))).toInt = (n.val : Int) ∧ f = f' := by
  unfold ScatterDims.resultIdx?
  split
  · next h =>
    rw [Option.some.injEq]
    constructor
    · intro hEq
      have h0 := congrArg (fun i : (⟨2, ![N, C]⟩ : Shape).Idx => (i 0).val) hEq
      have h1 := congrArg (fun i : (⟨2, ![N, C]⟩ : Shape).Idx => (i 1).val) hEq
      simp only [rowDims_start0, rowDims_start1, rowDims_window0, rowDims_window1] at h0 h1
      have g0 := (h 0).1
      rw [rowDims_start0, rowDims_window0] at g0
      refine ⟨?_, Fin.ext ?_⟩
      · change ((idx (ix2 e (0 : Fin 1))).toInt + ((0 : Nat) : Int)).toNat = n.val at h0
        omega
      · change (((0 : Int)) + (((f.val : Nat)) : Int)).toNat = f'.val at h1
        omega
    · rintro ⟨hi, rfl⟩
      funext a; refine Fin.ext ?_
      match a with
      | ⟨0, _⟩ =>
        show ((rowDims N E C wf).start (ix2 e f) idx 0 + ((rowDims N E C wf).window (ix2 e f) 0 : Nat)).toNat = n.val
        rw [rowDims_start0, rowDims_window0, hi]; omega
      | ⟨1, _⟩ =>
        show ((rowDims N E C wf).start (ix2 e f) idx 1 + ((rowDims N E C wf).window (ix2 e f) 1 : Nat)).toNat = f.val
        rw [rowDims_start1, rowDims_window1]; show ((0 : Int) + (f.val : Int)).toNat = f.val; omega
  · next h =>
    constructor
    · intro hh; exact absurd hh (by simp)
    · rintro ⟨hi, rfl⟩
      exfalso; apply h
      intro a
      match a with
      | ⟨0, _⟩ =>
        show 0 ≤ (rowDims N E C wf).start (ix2 e f) idx 0 + ((rowDims N E C wf).window (ix2 e f) 0 : Nat) ∧ (rowDims N E C wf).start (ix2 e f) idx 0 + ((rowDims N E C wf).window (ix2 e f) 0 : Nat) < (N : Int)
        rw [rowDims_start0, rowDims_window0, hi]; have := n.isLt; omega
      | ⟨1, _⟩ =>
        show 0 ≤ (rowDims N E C wf).start (ix2 e f) idx 1 + ((rowDims N E C wf).window (ix2 e f) 1 : Nat) ∧ (rowDims N E C wf).start (ix2 e f) idx 1 + ((rowDims N E C wf).window (ix2 e f) 1 : Nat) < (C : Int)
        rw [rowDims_start1, rowDims_window1]; have := f.isLt; show 0 ≤ (0 : Int) + (f.val : Int) ∧ (0 : Int) + (f.val : Int) < C; omega

/-- THE ROW SCATTER READ AT `(n, f)`: the operand's entry plus the sum over the update rows whose index is `n` of their entry in column `f`. -/
theorem scatterAdd_rows_apply {φ : FTy} (x : FVec Ideal ⟨2, ![N, C]⟩ φ) (idx : IVec ⟨2, ![E, 1]⟩ w)
    (upd : FVec Ideal ⟨2, ![E, C]⟩ φ) (n : Fin N) (f : Fin C) :
    Host.scatterAdd (F := Ideal) (rowDims N E C wf) x idx upd (ix2 n f)
      = x (ix2 n f) + ∑ e : Fin E, if (idx (ix2 e (0 : Fin 1))).toInt = (n.val : Int) then upd (ix2 e f) else 0 := by
  show x (ix2 n f) + ∑ j ∈ Finset.univ.filter (fun j => (rowDims N E C wf).resultIdx? j idx = some (ix2 n f)), upd j = _
  congr 1
  rw [Finset.sum_filter, sum_idx2]
  refine Finset.sum_congr rfl fun e _ => ?_
  simp only [rowDims_resultIdx_iff]
  by_cases hA : (idx (ix2 e (0 : Fin 1))).toInt = (n.val : Int)
  · simp [hA]
  · simp [hA]

/-! ## A scatter of scalars into a vector -/

/-- The dimension numbers of a scatter of `E` scalars into an `[N]` operand, one index per update. -/
abbrev cntDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

theorem cntDims_start0 (idx : IVec ⟨2, ![E, 1]⟩ w) (e : Fin E) :
    (cntDims N E wf1).start (ix1 e) idx 0 = (idx (ix2 e (0 : Fin 1))).toInt := by
  unfold ScatterDims.start
  rw [dif_pos (show (0 : Fin 1) ∈ (cntDims N E wf1).scatterDimsToOperandDims from List.mem_singleton.mpr rfl)]
  congr 2
  funext b; refine Fin.ext ?_
  match b with
  | ⟨0, _⟩ => rfl
  | ⟨1, _⟩ => rfl

theorem cntDims_window0 (j : (⟨1, ![E]⟩ : Shape).Idx) : (cntDims N E wf1).window j 0 = 0 := by
  unfold ScatterDims.window
  have h : (0 : Fin 1) ∉ (cntDims N E wf1).sKept := by
    show (0 : Fin 1) ∉ (List.finRange 1).filter (· ∉ ([0] : List (Fin 1)))
    decide
  rw [dif_neg h]

/-- Update `e` lands on `n` exactly when its index is `n`. -/
theorem cntDims_resultIdx_iff (idx : IVec ⟨2, ![E, 1]⟩ w) (e : Fin E) (n : Fin N) :
    (cntDims N E wf1).resultIdx? (ix1 e) idx = some (ix1 n) ↔ (idx (ix2 e (0 : Fin 1))).toInt = (n.val : Int) := by
  unfold ScatterDims.resultIdx?
  split
  · next h =>
    rw [Option.some.injEq]
    constructor
    · intro hEq
      have h0 := congrArg (fun i : (⟨1, ![N]⟩ : Shape).Idx => (i 0).val) hEq
      simp only [cntDims_start0, cntDims_window0] at h0
      have g0 := (h 0).1
      rw [cntDims_start0, cntDims_window0] at g0
      change ((idx (ix2 e (0 : Fin 1))).toInt + ((0 : Nat) : Int)).toNat = n.val at h0
      omega
    · intro hi
      funext a; refine Fin.ext ?_
      match a with
      | ⟨0, _⟩ =>
        show ((cntDims N E wf1).start (ix1 e) idx 0 + ((cntDims N E wf1).window (ix1 e) 0 : Nat)).toNat = n.val
        rw [cntDims_start0, cntDims_window0, hi]; omega
  · next h =>
    constructor
    · intro hh; exact absurd hh (by simp)
    · intro hi
      exfalso; apply h
      intro a
      match a with
      | ⟨0, _⟩ =>
        show 0 ≤ (cntDims N E wf1).start (ix1 e) idx 0 + ((cntDims N E wf1).window (ix1 e) 0 : Nat) ∧ (cntDims N E wf1).start (ix1 e) idx 0 + ((cntDims N E wf1).window (ix1 e) 0 : Nat) < (N : Int)
        rw [cntDims_start0, cntDims_window0, hi]; have := n.isLt; omega

/-- THE SCALAR SCATTER READ AT `n`: the operand's entry plus the sum of the updates whose index is `n`. -/
theorem scatterAdd_cnt_apply {φ : FTy} (x : FVec Ideal ⟨1, ![N]⟩ φ) (idx : IVec ⟨2, ![E, 1]⟩ w)
    (upd : FVec Ideal ⟨1, ![E]⟩ φ) (n : Fin N) :
    Host.scatterAdd (F := Ideal) (cntDims N E wf1) x idx upd (ix1 n)
      = x (ix1 n) + ∑ e : Fin E, if (idx (ix2 e (0 : Fin 1))).toInt = (n.val : Int) then upd (ix1 e) else 0 := by
  show x (ix1 n) + ∑ j ∈ Finset.univ.filter (fun j => (cntDims N E wf1).resultIdx? j idx = some (ix1 n)), upd j = _
  congr 1
  rw [Finset.sum_filter]
  refine Fintype.sum_equiv ⟨fun j => j 0, fun e => ix1 e, fun j => (eq_ix1 j).symm, fun _ => rfl⟩ _ _ fun j => ?_
  obtain ⟨e, rfl⟩ : ∃ e : Fin E, j = ix1 e := ⟨j 0, eq_ix1 j⟩
  show (if (cntDims N E wf1).resultIdx? (ix1 e) idx = some (ix1 n) then upd (ix1 e) else 0)
    = if (idx (ix2 e (0 : Fin 1))).toInt = (n.val : Int) then upd (ix1 e) else 0
  simp only [cntDims_resultIdx_iff]

end Cert.LibScatter

end
-- ==== Proof.Finite.lean ====
/-
  Every float the layer reads is a real number, and so is every aggregated message.

  The claim's precondition says of each float input that the absolute value of every entry is below +∞, the
  conjunction of one test per input array. An extended real whose absolute value max x (−x) is below ⊤ is
  neither ⊤ nor ⊥, so it is the image of a real number. The aggregated messages are a zero plus a finite sum of
  products of an entry of x (a gather only re-reads its operand) with an edge weight (a broadcast only re-reads
  its operand): reals are closed under products and finite sums.
-/
import proofs.«107100_j65283502899905_2_alg».proof.Defs
import proofs.«107100_j65283502899905_2_alg».proof.Proof.Gen.KernelIdeal
import proofs.«107100_j65283502899905_2_alg».proof.Proof.Gen.Pre_finite_inputs
import proofs.«107100_j65283502899905_2_alg».proof.Proof.Spec
import proofs.«107100_j65283502899905_2_alg».proof.Proof.LibRealSums
import proofs.«107100_j65283502899905_2_alg».proof.Proof.LibScatter
import proofs.«107100_j65283502899905_2_alg».proof.Proof.KAgg
import Idealize.ShloMosaic.Lib.ReduceAll
import Idealize.ShloMosaic.Lib.ValueIdx

noncomputable section

namespace Cert.Gin.KSide

open Idealize.ShloMosaic Idealize.ShloMosaic.ValueIdx Idealize.SL.Sem
open Cert.KernelIdeal Cert.RealSums
open scoped BigOperators

/-- The pattern the precondition compares against is +∞. -/
theorem inf32_eq : Ideal.ofBits .f32 0x7F800000#32 = (⊤ : EReal) := by
  simp [Ideal.ofBits, Ideal.ieee]

/-- An extended real whose absolute value is below +∞ is a real number. -/
theorem isReal_of_abs_lt (x : EReal)
    (h : Ideal.cmp .olt (max x (-x)) (Ideal.ofBits .f32 0x7F800000#32) = 1#1) : IsReal x := by
  rw [inf32_eq] at h
  unfold Ideal.cmp at h
  have h' : max x (-x) < ⊤ := by
    by_contra hn
    simp [hn] at h
  rw [max_lt_iff] at h'
  induction x using EReal.rec with
  | bot => exact absurd h'.2 (by simp)
  | coe r => exact ⟨r, rfl⟩
  | top => exact absurd h'.1 (by simp)

/-- A scalar has one index. -/
instance : Subsingleton Cert.Pre_finite_inputs.S_.Idx := ⟨fun a b => funext fun d => d.elim0⟩

/-- THE PRECONDITION DECODED: every entry of the features, the edge weights, the first layer's weights and bias and the
    normalisation's scale and shift is a real number. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc main_arg0) i))
      ∧ (∀ i, IsReal (m ((c.tc : Thread Cert.KernelIdeal.nD Cert.KernelIdeal.τ).loc main_arg3) i))
      ∧ (∀ i, IsReal (m ((c.tc : Thread Cert.KernelIdeal.nD Cert.KernelIdeal.τ).loc main_arg4) i))
      ∧ (∀ i, IsReal (m ((c.tc : Thread Cert.KernelIdeal.nD Cert.KernelIdeal.τ).loc main_arg5) i))
      ∧ (∀ i, IsReal (m ((c.tc : Thread Cert.KernelIdeal.nD Cert.KernelIdeal.τ).loc main_arg6) i))
      ∧ (∀ i, IsReal (m ((c.tc : Thread Cert.KernelIdeal.nD Cert.KernelIdeal.τ).loc main_arg7) i)) := by
  have e := congrFun (h c) ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, h3⟩, h4⟩, h5⟩, h6⟩, h7⟩, h8⟩, h9⟩ := e
  exact ⟨fun i => isReal_of_abs_lt _ (Host.reduce_andi_all _ _ _ _ _ h0 i),
    fun i => isReal_of_abs_lt _ (Host.reduce_andi_all _ _ _ _ _ h3 i),
    fun i => isReal_of_abs_lt _ (Host.reduce_andi_all _ _ _ _ _ h4 i),
    fun i => isReal_of_abs_lt _ (Host.reduce_andi_all _ _ _ _ _ h5 i),
    fun i => isReal_of_abs_lt _ (Host.reduce_andi_all _ _ _ _ _ h6 i),
    fun i => isReal_of_abs_lt _ (Host.reduce_andi_all _ _ _ _ _ h7 i)⟩

/-- The program's scatter record is the row scatter of 1600000 rows of 128 columns into 100000 rows. -/
theorem scatter_eq_rowDims :
    scatter_S100000x128_S1600000x1_S1600000x128_1_0_0_1
      = Cert.LibScatter.rowDims 100000 1600000 128 Facts₀.scatter_S100000x128_S1600000x1_S1600000x128_1_0_0_1_wf := rfl

/-- THE AGGREGATED MESSAGES ARE REAL: each is a zero plus a finite sum of products of an entry of x with an edge weight. -/
theorem kerAgg_real (x : S100000x128.Idx → EReal) (src dst : (⟨S1600000, .i32⟩ : BufTy).Contents (Elt Ideal))
    (ew : S1600000.Idx → EReal) (hx : ∀ i, IsReal (x i)) (hw : ∀ i, IsReal (ew i)) :
    ∀ i, IsReal (kerAgg x src dst ew i) := by
  intro i
  obtain ⟨n, f, rfl⟩ : ∃ (n : Fin 100000) (f : Fin 128), i = ix2 n f := ⟨_, _, eq_ix2 i⟩
  have key := Cert.LibScatter.scatterAdd_rows_apply (N := 100000) (E := 1600000) (C := 128) (w := 32) (φ := .f32)
    Facts₀.scatter_S100000x128_S1600000x1_S1600000x128_1_0_0_1_wf
    (broadcastInDim S100000x128 ![] Facts₀.bcast_S_S100000x128 (constant (F := Ideal) S_ .f32 0x00000000#32))
    (broadcastInDim S1600000x1 ![0] Facts₀.bcast_S1600000_S1600000x1_0 dst)
    (mulf (F := Ideal) (φ := .f32)
      (Host.gather gather_S100000x128_S1600000x1_S1600000x128_1_0_n_n_0_1_1128 x
        (broadcastInDim S1600000x1 ![0] Facts₀.bcast_S1600000_S1600000x1_0
          (select (cmpi .slt src (broadcastInDim S1600000 ![] Facts₀.bcast_S_S1600000 (constantI S_ 32 0#32)))
            (addi src (broadcastInDim S1600000 ![] Facts₀.bcast_S_S1600000 (constantI S_ 32 100000#32))) src)))
      (broadcastInDim S1600000x128 ![0, 1] Facts₀.bcast_S1600000x1_S1600000x128_0_1
        (broadcastInDim S1600000x1 ![0] Facts₀.bcast_S1600000_S1600000x1_0 ew)))
    n f
  rw [← scatter_eq_rowDims] at key
  have hk : kerAgg x src dst ew (ix2 n f) = _ := key
  rw [hk]
  refine IsReal.add ?_ (isReal_sum _ _ fun e _ => ?_)
  · show IsReal zero32
    rw [zero32_eq]; exact isReal_zero
  · split
    · exact IsReal.mul (hx _) (hw _)
    · exact isReal_zero

end Cert.Gin.KSide

end
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«107100_j65283502899905_2_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.LibBlockSum.lean ====
/-
  Sums over a range cut into equal blocks, in any commutative monoid (the extended reals among them): the sum over
  `Fin (nb * B)` is the sum over the blocks of the sums inside each block, and the same for a double sum over pairs
  — what a tiled reduction (a grid of blocks, each summed, the block sums added up) computes of a sum over the whole range.
-/
import Mathlib.Algebra.BigOperators.Fin
import Mathlib.Logic.Equiv.Fin.Basic

namespace LibBlockSum

open Finset

/-- The element of the whole range at position `p` of block `i`. -/
def blk (nb B : ℕ) (i : Fin nb) (p : Fin B) : Fin (nb * B) := finProdFinEquiv (i, p)

theorem blk_val (nb B : ℕ) (i : Fin nb) (p : Fin B) : (blk nb B i p).val = p.val + B * i.val := rfl

/-- A sum over the whole range is the sum over the blocks of the sums inside each. -/
theorem sum_blocks {M : Type*} [AddCommMonoid M] (nb B : ℕ) (f : Fin (nb * B) → M) :
    ∑ P : Fin (nb * B), f P = ∑ i : Fin nb, ∑ p : Fin B, f (blk nb B i p) := by
  rw [← (finProdFinEquiv (m := nb) (n := B)).sum_comp f, Fintype.sum_prod_type]
  rfl

/-- A double sum over pairs of the whole range is the sum over pairs of blocks of the double sums inside each pair. -/
theorem sum_blocks₂ {M : Type*} [AddCommMonoid M] (nb B : ℕ) (f : Fin (nb * B) → Fin (nb * B) → M) :
    ∑ P : Fin (nb * B), ∑ Q : Fin (nb * B), f P Q
      = ∑ i : Fin nb, ∑ j : Fin nb, ∑ p : Fin B, ∑ q : Fin B, f (blk nb B i p) (blk nb B j q) := by
  rw [sum_blocks nb B]
  refine Finset.sum_congr rfl fun i _ => ?_
  exact (Finset.sum_congr rfl fun p _ => sum_blocks nb B (f (blk nb B i p))).trans Finset.sum_comm

/-- Eight summands added in order onto zero are their sum. -/
theorem fold8 {M : Type*} [AddCommMonoid M] (b : Fin 8 → M) :
    (((((((0 + b 0) + b 1) + b 2) + b 3) + b 4) + b 5) + b 6) + b 7 = ∑ j : Fin 8, b j := by
  simp [Fin.sum_univ_eight]

end LibBlockSum
-- ==== Proof.BnLaw.lean ====
/-
  The two ways of normalising a column agree on real columns.

  Twenty tiles of 5000 rows, ten on each of two cores, are all 100000 rows, so the tile-by-tile totals are the totals.
  On a column of real numbers the mean of the squares minus the square of the mean is the mean of the squared
  deviations, which is not negative, so taking the larger of it and zero changes nothing, and adding the positive ε
  gives a positive real whose reciprocal square root ρ is real. Then u·(γ·ρ) + (β − (μ·γ)·ρ) and (u − μ)·ρ·γ + β are
  the same real number.
-/
import proofs.«107100_j65283502899905_2_alg».proof.Proof.Spec
import proofs.«107100_j65283502899905_2_alg».proof.Proof.LibRealSums
import proofs.«107100_j65283502899905_2_alg».proof.Proof.LibBatchNorm
import proofs.«107100_j65283502899905_2_alg».proof.Proof.LibBlockSum

noncomputable section

namespace Cert.Gin

open Idealize.ShloMosaic Idealize.ShloMosaic.ValueIdx Cert.RealSums Cert.BatchNorm
open scoped BigOperators

/-- A sum over the tiles of the cores is the sum over all rows. -/
theorem sum_rows {M : Type*} [AddCommMonoid M] (f : Fin 100000 → M) :
    ∑ c : Fin 2, ∑ i : Fin 10, ∑ p : Fin 5000, f (row c i p) = ∑ r : Fin 100000, f r := by
  symm
  refine (LibBlockSum.sum_blocks 20 5000 f).trans ?_
  refine (LibBlockSum.sum_blocks 2 10 (fun t => ∑ p : Fin 5000, f (LibBlockSum.blk 20 5000 t p))).trans ?_
  refine Finset.sum_congr rfl fun c _ => Finset.sum_congr rfl fun i _ => Finset.sum_congr rfl fun p _ => ?_
  refine congrArg f (Fin.ext ?_)
  show (LibBlockSum.blk 20 5000 (LibBlockSum.blk 2 10 c i) p).val = (c.val * 10 + i.val) * 5000 + p.val
  rw [LibBlockSum.blk_val, LibBlockSum.blk_val]
  omega

theorem sum_part1 (U : Fin 100000 → Fin 512 → EReal) (j : Fin 512) : ∑ c : Fin 2, part1 U c j = ∑ r : Fin 100000, U r j :=
  sum_rows fun r => U r j

theorem sum_part2 (U : Fin 100000 → Fin 512 → EReal) (j : Fin 512) :
    ∑ c : Fin 2, part2 U c j = ∑ r : Fin 100000, U r j * U r j :=
  sum_rows fun r => U r j * U r j

/-- On reals: u·(γ·ρ) + (β − (μ·γ)·ρ) = (u − μ)·ρ·γ + β. -/
theorem affine_eq {u μ ρ g b : EReal} (hu : IsReal u) (hμ : IsReal μ) (hρ : IsReal ρ) (hg : IsReal g) (hb : IsReal b) :
    u * (g * ρ) + (b - (μ * g) * ρ) = ((u - μ) * ρ) * g + b := by
  obtain ⟨u, rfl⟩ := hu
  obtain ⟨μ, rfl⟩ := hμ
  obtain ⟨ρ, rfl⟩ := hρ
  obtain ⟨g, rfl⟩ := hg
  obtain ⟨b, rfl⟩ := hb
  rw [← EReal.coe_mul, ← EReal.coe_mul, ← EReal.coe_mul, ← EReal.coe_mul, ← EReal.coe_sub, ← EReal.coe_add,
    ← EReal.coe_sub, ← EReal.coe_mul, ← EReal.coe_mul, ← EReal.coe_add]
  congr 1
  ring

/-- THE TWO NORMALISATIONS AGREE on a matrix of reals with real scales and shifts. -/
theorem bnAcc_eq_bnDev (U : Fin 100000 → Fin 512 → EReal) (γ β : (⟨1, ![512]⟩ : Shape).Idx → EReal)
    (hU : ∀ r j, IsReal (U r j)) (hγ : ∀ j, IsReal (γ j)) (hβ : ∀ j, IsReal (β j)) (r : Fin 100000) (j : Fin 512) :
    bnAcc U γ β r j = bnDev U γ β r j := by
  have hy : ∀ r, IsReal (U r j) := fun r => hU r j
  have hm : (100000 : ℝ) = (Fintype.card (Fin 100000) : ℝ) := by rw [Fintype.card_fin]; norm_num
  have hm0 : (100000 : ℝ) ≠ 0 := by norm_num
  have hmpos : (0 : ℝ) < 100000 := by norm_num
  -- the means
  have hmean : meanAcc U j = Ideal.div (∑ r : Fin 100000, U r j) ((100000 : ℝ) : EReal) := by
    unfold meanAcc; rw [sum_part1, zero32_eq, zero_add, cnt32_eq]
  have hmeanD : meanDev U j = Ideal.div (∑ r : Fin 100000, U r j) ((100000 : ℝ) : EReal) := by
    unfold meanDev; rw [zero32_eq, zero_add, cnt32_eq]
  have hmsq : msqAcc U j = Ideal.div (∑ r : Fin 100000, U r j * U r j) ((100000 : ℝ) : EReal) := by
    unfold msqAcc; rw [sum_part2, zero32_eq, zero_add, cnt32_eq]
  -- the variances
  have hvar := var_eq (fun r => U r j) hy hm hm0
  obtain ⟨v, hv0, hv⟩ := varSq_nonneg Finset.univ (fun r => U r j) (fun r _ => hy r)
    (by rw [Finset.card_univ]; exact hm) hmpos
  have hvarD : varDev U j = (v : EReal) := by
    unfold varDev; rw [zero32_eq, zero_add, cnt32_eq, hmeanD, ← hvar]; exact hv
  obtain ⟨e, he0, he⟩ := eps32_pos
  have hrstd : rstdAcc U j = Ideal.rsqrt ((v : EReal) + eps32) := by
    unfold rstdAcc
    rw [hmsq, hmean, hv, zero32_eq, max_eq_left (by exact_mod_cast hv0)]
  have hρ : IsReal (Ideal.rsqrt ((v : EReal) + eps32)) := by rw [he]; exact isReal_rsqrt_add hv0 he0
  have hμ : IsReal (Ideal.div (∑ r : Fin 100000, U r j) ((100000 : ℝ) : EReal)) :=
    isReal_div_coe (isReal_sum _ _ fun r _ => hy r) hm0
  unfold bnAcc bnDev scaleAcc shiftAcc
  rw [hrstd, hvarD, hmean, hmeanD]
  exact affine_eq (hU r j) hμ hρ (hγ _) (hβ _)

end Cert.Gin

end
-- ==== Proof.Bridge.lean ====
/-
  From real inputs to equal outputs.

  When x, the aggregated messages, w1 and b1 are arrays of real numbers, every entry of the first linear layer
  (1·x + A)·w1 + b1 is real: reals are closed under products and finite sums. Then, with real γ and β, the two ways of
  normalising agree entry by entry, and so do the rectified rows' products with w2 plus b2.
-/
import proofs.«107100_j65283502899905_2_alg».proof.Proof.Spec
import proofs.«107100_j65283502899905_2_alg».proof.Proof.BnLaw

noncomputable section

namespace Cert.Gin

open Idealize.ShloMosaic Idealize.ShloMosaic.ValueIdx Cert.RealSums
open scoped BigOperators

/-- Every entry of the first linear layer of real arrays is real. -/
theorem lin1_real (x A : (⟨2, ![100000, 128]⟩ : Shape).Idx → EReal) (w1 : (⟨2, ![128, 512]⟩ : Shape).Idx → EReal)
    (b1 : (⟨1, ![512]⟩ : Shape).Idx → EReal) (hx : ∀ i, IsReal (x i)) (hA : ∀ i, IsReal (A i)) (hw : ∀ i, IsReal (w1 i))
    (hb : ∀ i, IsReal (b1 i)) (r : Fin 100000) (j : Fin 512) : IsReal (lin1 x A w1 b1 r j) := by
  unfold lin1 hid
  have h1 : IsReal one32 := by rw [one32_eq]; exact isReal_one
  exact (isReal_sum _ _ fun k _ => (((h1.mul (hx _)).add (hA _)).mul (hw _))).add (hb _)

/-- The second linear layer of the two normalisations of a real first layer agree. -/
theorem lin2_bn_eq (U : Fin 100000 → Fin 512 → EReal) (γ β : (⟨1, ![512]⟩ : Shape).Idx → EReal)
    (w2 : (⟨2, ![512, 256]⟩ : Shape).Idx → EReal) (b2 : (⟨1, ![256]⟩ : Shape).Idx → EReal)
    (hU : ∀ r j, IsReal (U r j)) (hγ : ∀ j, IsReal (γ j)) (hβ : ∀ j, IsReal (β j)) (r : Fin 100000) (o : Fin 256) :
    lin2 (bnAcc U γ β) w2 b2 r o = lin2 (bnDev U γ β) w2 b2 r o := by
  unfold lin2
  refine congrArg₂ (· + ·) (Finset.sum_congr rfl fun j _ => ?_) rfl
  rw [bnAcc_eq_bnDev U γ β hU hγ hβ r j]

end Cert.Gin

end
-- ==== Proof.Claims.lean ====
/-
  The five claims about the message-passing layer.

  The three programs run: the two kernel programs by their generated frames, the reference by its run. The
  idealisation rewrote nothing. At the exact values the kernel program's result array and the reference's are the same
  function of the arguments: both are max(normalised u, 0)·w2 + b2 with u = (1·x + A)·w1 + b1 over the same aggregated
  messages A; the kernel normalises from tile-by-tile sums of u and u², the reference from the mean and the mean squared
  deviation, and on the real entries a finite-input run produces the two normalisations coincide.
-/
import proofs.«107100_j65283502899905_2_alg».proof.Defs
import proofs.«107100_j65283502899905_2_alg».proof.Proof.Gen.Kernel.Frame
import proofs.«107100_j65283502899905_2_alg».proof.Proof.Gen.KernelIdeal.Frame
import proofs.«107100_j65283502899905_2_alg».proof.Proof.Gen.ReferenceIdeal
import proofs.«107100_j65283502899905_2_alg».proof.Proof.Gen.Pre_finite_inputs
import proofs.«107100_j65283502899905_2_alg».proof.Proof.KRun
import proofs.«107100_j65283502899905_2_alg».proof.Proof.KValue
import proofs.«107100_j65283502899905_2_alg».proof.Proof.RefRun
import proofs.«107100_j65283502899905_2_alg».proof.Proof.RefRead
import proofs.«107100_j65283502899905_2_alg».proof.Proof.Finite
import proofs.«107100_j65283502899905_2_alg».proof.Proof.Bridge

noncomputable section

namespace Cert.Proof.LayerClaims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run m ρ)

theorem preserves : Cert.preserves_Kernel_KernelIdeal := trivial

/-- Both result arrays end at the same function of the arguments. -/
theorem algebraic : Cert.algebraic_KernelIdeal_ReferenceIdeal := by
  intro m ρ m' ρ' hpre hagree
  refine ⟨fun c => Cert.KernelIdeal.Gen.W4 m ρ c (Proc.devRef .tc Cert.KernelIdeal.main_v38),
    Cert.KernelIdeal.Named.run_named (F := Ideal) m ρ, ?_⟩
  refine (θ_run Cert.ReferenceIdeal.defs _ _).mono (fun _ h c => ⟨(h c).1.trans ?_, (h c).2⟩)
    (Cert.ReferenceIdeal.HandRun.run m' ρ')
  obtain ⟨h0, h1, h2, h3, h4, h5, h6, h7, h8, h9⟩ := hagree c
  rw [h0, h1, h2, h3, h4, h5, h6, h7, h8, h9]
  obtain ⟨rx, rew, rw1, rb1, rγ, rβ⟩ := Cert.Gin.KSide.pre_real m hpre c
  funext idx
  obtain ⟨r, o, rfl⟩ : ∃ (r : Fin 100000) (o : Fin 256), idx = ix2 r o := ⟨idx 0, idx 1, eq_ix2 idx⟩
  refine (Cert.Gin.RefSide.refVal_apply _ _ _ _ _ _ _ _ _ _ r o).trans ?_
  refine Eq.trans ?_ (Cert.Gin.KSide.ker_value m ρ c r o).symm
  exact (Cert.Gin.lin2_bn_eq _ _ _ _ _
    (Cert.Gin.lin1_real _ _ _ _ rx (Cert.Gin.KSide.kerAgg_real _ _ _ _ rx rew) rw1 rb1) rγ rβ r o).symm

end Cert.Proof.LayerClaims

end
-- ==== Proof.lean ====
/-
  The certificate of the message-passing layer: the stated facts of the three programs and of the precondition are
  the generated instances, and the five claims are proved in Proof/Claims.lean.
-/
import proofs.«107100_j65283502899905_2_alg».proof.Defs
import proofs.«107100_j65283502899905_2_alg».proof.Proof.Claims
import proofs.«107100_j65283502899905_2_alg».proof.Proof.Gen.Kernel
import proofs.«107100_j65283502899905_2_alg».proof.Proof.Gen.KernelIdeal
import proofs.«107100_j65283502899905_2_alg».proof.Proof.Gen.ReferenceIdeal
import proofs.«107100_j65283502899905_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
